-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S5x100 : Shape := ⟨2, ![5, 100]⟩
abbrev S100 : Shape := ⟨1, ![100]⟩
abbrev S100x100 : Shape := ⟨2, ![100, 100]⟩
abbrev S102x100 : Shape := ⟨2, ![102, 100]⟩
abbrev S100x2 : Shape := ⟨2, ![100, 2]⟩
abbrev S2 : Shape := ⟨1, ![2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S5x100 : S_.BroadcastsInDim S5x100 (![] : Fin 0 → Fin S5x100.rank)
  reducesTo_S5x100_S_d0_1 : S5x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S102x100 : S_.BroadcastsInDim S102x100 (![] : Fin 0 → Fin S102x100.rank)
  reducesTo_S102x100_S_d0_1 : S102x100.ReducesTo [0, 1] S_
  bcast_S_S100x2 : S_.BroadcastsInDim S100x2 (![] : Fin 0 → Fin S100x2.rank)
  reducesTo_S100x2_S_d0_1 : S100x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S100x2 .f32) (main_arg13 : FVec F S2 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S100x2 .f32 := Host.absf main_arg12
  let main_cst_20 : FVec F S_ .f32 := constant S_ .f32 0x7F800000#32
  let main_v55 : FVec F S100x2 .f32 := broadcastInDim S100x2 ![] bcast_S_S100x2 main_cst_20
  let main_v56 : IVec S100x2 1 := cmpf .olt main_v54 main_v55
  let main_c_21 : IVec S_ 1 := constantI S_ 1 1#1
  let main_v57 : IVec S_ 1 := (fun x v => Host.reduce IntOp.andi x v reducesTo_S100x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S100x100 .f32) (main_arg9 : FVec F S100 .f32) (main_arg10 : FVec F S102x100 .f32) (main_arg11 : FVec F S100 .f32) (main_arg12 : FVec F S100x2 .f32) (main_arg13 : FVec F S2 .f32) (main_v33 : IVec S_ 1) : IVec S_ 1 :=
  let main_v34 : FVec F S100x100 .f32 := Host.absf main_arg8
  let main_cst_12 : FVec F S_ .f32 := constant S_ .f32 0x7F800000#32
  let main_v35 : FVec F S100x100 .f32 := broadcastInDim S100x100 ![] bcast_S_S100x100 main_cst_12
  let main_v36 : IVec S100x100 1 := cmpf .olt main_v34 main_v35
  let main_c_13 : IVec S_ 1 := constantI S_ 1 1#1
  let main_v37 : IVec S_ 1 := (fun x v => Host.reduce IntOp.andi x v reducesTo_S100x100_S_d0_1 h_S_) main_v36 main_c_13
  let main_v38 : IVec S_ 1 := andi main_v33 main_v37
  let main_v39 : FVec F S100 .f32 := Host.absf main_arg9
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S102x100 .f32 := Host.absf main_arg10
  let main_cst_16 : FVec F S_ .f32 := constant S_ .f32 0x7F800000#32
  let main_v45 : FVec F S102x100 .f32 := broadcastInDim S102x100 ![] bcast_S_S102x100 main_cst_16
  let main_v46 : IVec S102x100 1 := cmpf .olt main_v44 main_v45
  let main_c_17 : IVec S_ 1 := constantI S_ 1 1#1
  let main_v47 : IVec S_ 1 := (fun x v => Host.reduce IntOp.andi x v reducesTo_S102x100_S_d0_1 h_S_) main_v46 main_c_17
  let main_v48 : IVec S_ 1 := andi main_v43 main_v47
  let main_v49 : FVec F S100 .f32 := Host.absf main_arg11
  let main_cst_18 : FVec F S_ .f32 := constant S_ .f32 0x7F800000#32
  let main_v50 : FVec F S100 .f32 := broadcastInDim S100 ![] bcast_S_S100 main_cst_18
  fn_part3 (F := F) main_arg12 main_arg13 main_v48 main_v49 main_v50

def fn_part1 {F : FTy → Type} [FloatOps F] (main_arg5 : FVec F S100 .f32) (main_arg6 : FVec F S100x100 .f32) (main_arg7 : FVec F S100 .f32) (main_arg8 : FVec F S100x100 .f32) (main_arg9 : FVec F S100 .f32) (main_arg10 : FVec F S102x100 .f32) (main_arg11 : FVec F S100 .f32) (main_arg12 : FVec F S100x2 .f32) (main_arg13 : FVec F S2 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg6
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x2 .f32) (main_arg1 : IVec S2x1600000 32) (main_arg2 : FVec F S5x100 .f32) (main_arg3 : FVec F S100 .f32) (main_arg4 : FVec F S100x100 .f32) (main_arg5 : FVec F S100 .f32) (main_arg6 : FVec F S100x100 .f32) (main_arg7 : FVec F S100 .f32) (main_arg8 : FVec F S100x100 .f32) (main_arg9 : FVec F S100 .f32) (main_arg10 : FVec F S102x100 .f32) (main_arg11 : FVec F S100 .f32) (main_arg12 : FVec F S100x2 .f32) (main_arg13 : FVec F S2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S5x100 .f32 := Host.absf main_arg2
  let main_cst_0 : FVec F S_ .f32 := constant S_ .f32 0x7F800000#32
  let main_v5 : FVec F S5x100 .f32 := broadcastInDim S5x100 ![] bcast_S_S5x100 main_cst_0
  let main_v6 : IVec S5x100 1 := cmpf .olt main_v4 main_v5
  let main_c_1 : IVec S_ 1 := constantI S_ 1 1#1
  let main_v7 : IVec S_ 1 := (fun x v => Host.reduce IntOp.andi x v reducesTo_S5x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg4
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg5 main_arg6 main_arg7 main_arg8 main_arg9 main_arg10 main_arg11 main_arg12 main_arg13 main_v13 main_v16
-- ==== Kernel.lean ====
abbrev S100000x2 : Shape := ⟨2, ![100000, 2]⟩
abbrev S2x1600000 : Shape := ⟨2, ![2, 1600000]⟩
abbrev S5x100 : Shape := ⟨2, ![5, 100]⟩
abbrev S100 : Shape := ⟨1, ![100]⟩
abbrev S100x100 : Shape := ⟨2, ![100, 100]⟩
abbrev S102x100 : Shape := ⟨2, ![102, 100]⟩
abbrev S100x2 : Shape := ⟨2, ![100, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩
abbrev S1600000x4 : Shape := ⟨2, ![1600000, 4]⟩
abbrev S4x100 : Shape := ⟨2, ![4, 100]⟩
abbrev S1x100 : Shape := ⟨2, ![1, 100]⟩
abbrev S1600000x100 : Shape := ⟨2, ![1600000, 100]⟩
abbrev S6400x4 : Shape := ⟨2, ![6400, 4]⟩
abbrev S6400x100 : Shape := ⟨2, ![6400, 100]⟩
abbrev S100000x100 : Shape := ⟨2, ![100000, 100]⟩
abbrev S1x2 : Shape := ⟨2, ![1, 2]⟩
abbrev S10000x2 : Shape := ⟨2, ![10000, 2]⟩
abbrev S10000x100 : Shape := ⟨2, ![10000, 100]⟩
abbrev S10000x102 : Shape := ⟨2, ![10000, 102]⟩

abbrev nBuf : Space → Nat
  | .hbm => 57
  | .vmem => 22
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S5x100, .f32⟩
  | .hbm, ⟨3, _⟩ => ⟨S100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S100x100, .f32⟩
  | .hbm, ⟨9, _⟩ => ⟨S100, .f32⟩
  | .hbm, ⟨10, _⟩ => ⟨S102x100, .f32⟩
  | .hbm, ⟨11, _⟩ => ⟨S100, .f32⟩
  | .hbm, ⟨12, _⟩ => ⟨S100x2, .f32⟩
  | .hbm, ⟨13, _⟩ => ⟨S2, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x2, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x2, .f32⟩
  | .hbm, ⟨36, _⟩ => ⟨S1600000x4, .f32⟩
  | .hbm, ⟨37, _⟩ => ⟨S1600000x4, .bf16⟩
  | .hbm, ⟨38, _⟩ => ⟨S4x100, .f32⟩
  | .hbm, ⟨39, _⟩ => ⟨S4x100, .bf16⟩
  | .hbm, ⟨40, _⟩ => ⟨S100x100, .bf16⟩
  | .hbm, ⟨41, _⟩ => ⟨S100x100, .bf16⟩
  | .hbm, ⟨42, _⟩ => ⟨S100x100, .bf16⟩
  | .hbm, ⟨43, _⟩ => ⟨S1x100, .f32⟩
  | .hbm, ⟨44, _⟩ => ⟨S1x100, .f32⟩
  | .hbm, ⟨45, _⟩ => ⟨S1x100, .f32⟩
  | .hbm, ⟨46, _⟩ => ⟨S1x100, .f32⟩
  | .hbm, ⟨47, _⟩ => ⟨S1600000x100, .f32⟩
  | .hbm, ⟨48, _⟩ => ⟨S_, .f32⟩
  | .hbm, ⟨49, _⟩ => ⟨S100000x100, .f32⟩
  | .hbm, ⟨50, _⟩ => ⟨S1600000x1, .i32⟩
  | .hbm, ⟨51, _⟩ => ⟨S100000x100, .f32⟩
  | .hbm, ⟨52, _⟩ => ⟨S102x100, .bf16⟩
  | .hbm, ⟨53, _⟩ => ⟨S100x2, .bf16⟩
  | .hbm, ⟨54, _⟩ => ⟨S1x100, .f32⟩
  | .hbm, ⟨55, _⟩ => ⟨S1x2, .f32⟩
  | .hbm, ⟨56, _⟩ => ⟨S100000x2, .f32⟩
  | .local _ .vmem, ⟨0, _⟩ => ⟨S6400x4, .bf16⟩
  | .local _ .vmem, ⟨1, _⟩ => ⟨S6400x4, .bf16⟩
  | .local _ .vmem, ⟨2, _⟩ => ⟨S4x100, .bf16⟩
  | .local _ .vmem, ⟨3, _⟩ => ⟨S1x100, .f32⟩
  | .local _ .vmem, ⟨4, _⟩ => ⟨S100x100, .bf16⟩
  | .local _ .vmem, ⟨5, _⟩ => ⟨S1x100, .f32⟩
  | .local _ .vmem, ⟨6, _⟩ => ⟨S100x100, .bf16⟩
  | .local _ .vmem, ⟨7, _⟩ => ⟨S1x100, .f32⟩
  | .local _ .vmem, ⟨8, _⟩ => ⟨S100x100, .bf16⟩
  | .local _ .vmem, ⟨9, _⟩ => ⟨S1x100, .f32⟩
  | .local _ .vmem, ⟨10, _⟩ => ⟨S6400x100, .f32⟩
  | .local _ .vmem, ⟨11, _⟩ => ⟨S6400x100, .f32⟩
  | .local _ .vmem, ⟨12, _⟩ => ⟨S10000x2, .f32⟩
  | .local _ .vmem, ⟨13, _⟩ => ⟨S10000x2, .f32⟩
  | .local _ .vmem, ⟨14, _⟩ => ⟨S10000x100, .f32⟩
  | .local _ .vmem, ⟨15, _⟩ => ⟨S10000x100, .f32⟩
  | .local _ .vmem, ⟨16, _⟩ => ⟨S102x100, .bf16⟩
  | .local _ .vmem, ⟨17, _⟩ => ⟨S1x100, .f32⟩
  | .local _ .vmem, ⟨18, _⟩ => ⟨S100x2, .bf16⟩
  | .local _ .vmem, ⟨19, _⟩ => ⟨S1x2, .f32⟩
  | .local _ .vmem, ⟨20, _⟩ => ⟨S10000x2, .f32⟩
  | .local _ .vmem, ⟨21, _⟩ => ⟨S10000x2, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x4 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x100 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x100 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x100 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x100 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S102x100 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x2 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x2_S1600000x2_S1600000x4_d1 : Shape.Concatenates [S1600000x2, S1600000x2] S1600000x4 1
  bitsLt_bf16_f32 : FTy.bits .bf16 < FTy.bits .f32
  slices_S5x100_S4x100_0_0 : S5x100.Slices ![0, 0] S4x100
  shapeCasts_S100_S1x100 : S100.ShapeCasts S1x100
  inb_S6400x4_S6400x4_0_0 : ∀ a, (![0, 0] : Fin 2 → Nat) a + S6400x4.size a ≤ S6400x4.size a
  h_S6400x4 : 0 < S6400x4.numel
  shapeCasts_S6400x4_S6400x4 : S6400x4.ShapeCasts S6400x4
  inb_S4x100_S4x100_0_0 : ∀ a, (![0, 0] : Fin 2 → Nat) a + S4x100.size a ≤ S4x100.size a
  h_S4x100 : 0 < S4x100.numel
  shapeCasts_S4x100_S4x100 : S4x100.ShapeCasts S4x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S6400x100 : S1x100.Broadcasts S6400x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S6400x100_S6400x100_0_0 : ∀ a, (![0, 0] : Fin 2 → Nat) a + S6400x100.size a ≤ S6400x100.size a
  h_S6400x100 : 0 < S6400x100.numel
  bcast_S_S100000x100 : S_.BroadcastsInDim S100000x100 (![] : Fin 0 → Fin S100000x100.rank)
  shapeCasts_S2_S1x2 : S2.ShapeCasts S1x2
  inb_S10000x2_S10000x2_0_0 : ∀ a, (![0, 0] : Fin 2 → Nat) a + S10000x2.size a ≤ S10000x2.size a
  h_S10000x2 : 0 < S10000x2.numel
  inb_S10000x100_S10000x100_0_0 : ∀ a, (![0, 0] : Fin 2 → Nat) a + S10000x100.size a ≤ S10000x100.size a
  h_S10000x100 : 0 < S10000x100.numel
  shapeCasts_S10000x100_S10000x100 : S10000x100.ShapeCasts S10000x100
  concatenates_S10000x2_S10000x100_S10000x102_d1 : Shape.Concatenates [S10000x2, S10000x100] S10000x102 1
  inb_S102x100_S102x100_0_0 : ∀ a, (![0, 0] : Fin 2 → Nat) a + S102x100.size a ≤ S102x100.size a
  h_S102x100 : 0 < S102x100.numel
  shapeCasts_S102x100_S102x100 : S102x100.ShapeCasts S102x100
  broadcasts_S1x100_S10000x100 : S1x100.Broadcasts S10000x100
  inb_S100x2_S100x2_0_0 : ∀ a, (![0, 0] : Fin 2 → Nat) a + S100x2.size a ≤ S100x2.size a
  h_S100x2 : 0 < S100x2.numel
  shapeCasts_S100x2_S100x2 : S100x2.ShapeCasts S100x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  gather_S100000x2_S1600000x1_S1600000x2_1_0_n_n_0_1_12_wf : GatherDims.WF S100000x2 S1600000x1 S1600000x2 [1] [0] [] [0] [] 1 ![1, 2]
  dot_S6400x4_S4x100_S6400x100_1_0_0_1_n_n_wf : DotDims.WF S6400x4 S4x100 S6400x100 [1] [0] [0] [1] [] []
  dot_S6400x100_S100x100_S6400x100_1_0_0_1_n_n_wf : DotDims.WF S6400x100 S100x100 S6400x100 [1] [0] [0] [1] [] []
  scatter_S100000x100_S1600000x1_S1600000x100_1_0_0_1_wf : ScatterDims.WF S100000x100 S1600000x1 S1600000x100 [1] [0] [0] 1
  dot_S10000x102_S102x100_S10000x100_1_0_0_1_n_n_wf : DotDims.WF S10000x102 S102x100 S10000x100 [1] [0] [0] [1] [] []
  dot_S10000x100_S100x2_S10000x2_1_0_0_1_n_n_wf : DotDims.WF S10000x100 S100x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x4.size a ≤ S1600000x4.size a
  hwx0_0 : ∀ i : grid0.Coords, EltTy.bits .bf16 = 32 ∨ (Rect.block (s := S1600000x4) S6400x4.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x100.size a ≤ S4x100.size a
  hwx0_1 : ∀ i : grid0.Coords, EltTy.bits .bf16 = 32 ∨ (Rect.block (s := S4x100) S4x100.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .bf16 = 32 ∨ (Rect.block (s := S100x100) S100x100.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x100.size a ≤ S100x100.size a
  hwx0_5 : ∀ i : grid0.Coords, EltTy.bits .bf16 = 32 ∨ (Rect.block (s := S100x100) S100x100.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x100.size a ≤ S100x100.size a
  hwx0_7 : ∀ i : grid0.Coords, EltTy.bits .bf16 = 32 ∨ (Rect.block (s := S100x100) S100x100.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x100.size a ≤ S1x100.size a
  hwx0_8 : ∀ i : grid0.Coords, EltTy.bits .f32 = 32 ∨ (Rect.block (s := S1x100) S1x100.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x100.size a ≤ S1600000x100.size a
  hwx0_9 : ∀ i : grid0.Coords, EltTy.bits .f32 = 32 ∨ (Rect.block (s := S1600000x100) S6400x100.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x2.size a ≤ S100000x2.size a
  hwx1_0 : ∀ i : grid1.Coords, EltTy.bits .f32 = 32 ∨ (Rect.block (s := S100000x2) S10000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x100.size a ≤ S100000x100.size a
  hwx1_1 : ∀ i : grid1.Coords, EltTy.bits .f32 = 32 ∨ (Rect.block (s := S100000x100) S10000x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S102x100.size a ≤ S102x100.size a
  hwx1_2 : ∀ i : grid1.Coords, EltTy.bits .bf16 = 32 ∨ (Rect.block (s := S102x100) S102x100.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x100.size a ≤ S1x100.size a
  hwx1_3 : ∀ i : grid1.Coords, EltTy.bits .f32 = 32 ∨ (Rect.block (s := S1x100) S1x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x2.size a ≤ S100x2.size a
  hwx1_4 : ∀ i : grid1.Coords, EltTy.bits .bf16 = 32 ∨ (Rect.block (s := S100x2) S100x2.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x2.size a ≤ S100000x2.size a
  hwx1_6 : ∀ i : grid1.Coords, EltTy.bits .f32 = 32 ∨ (Rect.block (s := S100000x2) S10000x2.size (cc1_transform_6 i) (hinb1_6 i)).WholeWords (EltTy.packing .f32)

variable [Facts₀]

def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def dot_S6400x4_S4x100_S6400x100_1_0_0_1_n_n : DotDims S6400x4 S4x100 S6400x100 where
  lhsContracting := [1]
  rhsContracting := [0]
  lhsNonContracting := [0]
  rhsNonContracting := [1]
  lhsBatch := []
  rhsBatch := []
  wf := dot_S6400x4_S4x100_S6400x100_1_0_0_1_n_n_wf
def dot_S6400x100_S100x100_S6400x100_1_0_0_1_n_n : DotDims S6400x100 S100x100 S6400x100 where
  lhsContracting := [1]
  rhsContracting := [0]
  lhsNonContracting := [0]
  rhsNonContracting := [1]
  lhsBatch := []
  rhsBatch := []
  wf := dot_S6400x100_S100x100_S6400x100_1_0_0_1_n_n_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S10000x102_S102x100_S10000x100_1_0_0_1_n_n : DotDims S10000x102 S102x100 S10000x100 where
  lhsContracting := [1]
  rhsContracting := [0]
  lhsNonContracting := [0]
  rhsNonContracting := [1]
  lhsBatch := []
  rhsBatch := []
  wf := dot_S10000x102_S102x100_S10000x100_1_0_0_1_n_n_wf
def dot_S10000x100_S100x2_S10000x2_1_0_0_1_n_n : DotDims S10000x100 S100x2 S10000x2 where
  lhsContracting := [1]
  rhsContracting := [0]
  lhsNonContracting := [0]
  rhsNonContracting := [1]
  lhsBatch := []
  rhsBatch := []
  wf := dot_S10000x100_S100x2_S10000x2_1_0_0_1_n_n_wf

abbrev win0_0 : Pipeline.Window sig grid0 :=
  Pipeline.Window.ofSpec (Memref.whole main_v19) S6400x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S100x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S100x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S6400x100.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S10000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S102x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S100x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S10000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S5x100 : Shape := ⟨2, ![5, 100]⟩
abbrev S100 : Shape := ⟨1, ![100]⟩
abbrev S100x100 : Shape := ⟨2, ![100, 100]⟩
abbrev S102x100 : Shape := ⟨2, ![102, 100]⟩
abbrev S100x2 : Shape := ⟨2, ![100, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩
abbrev S1600000x5 : Shape := ⟨2, ![1600000, 5]⟩
abbrev S1600000x100 : Shape := ⟨2, ![1600000, 100]⟩
abbrev S1x100 : Shape := ⟨2, ![1, 100]⟩
abbrev S100000x100 : Shape := ⟨2, ![100000, 100]⟩
abbrev S100000x102 : Shape := ⟨2, ![100000, 102]⟩
abbrev S1x2 : Shape := ⟨2, ![1, 2]⟩

abbrev nBuf : Space → Nat
  | .hbm => 83
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S5x100, .f32⟩
  | .hbm, ⟨3, _⟩ => ⟨S100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S100x100, .f32⟩
  | .hbm, ⟨9, _⟩ => ⟨S100, .f32⟩
  | .hbm, ⟨10, _⟩ => ⟨S102x100, .f32⟩
  | .hbm, ⟨11, _⟩ => ⟨S100, .f32⟩
  | .hbm, ⟨12, _⟩ => ⟨S100x2, .f32⟩
  | .hbm, ⟨13, _⟩ => ⟨S2, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x2, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x2, .f32⟩
  | .hbm, ⟨38, _⟩ => ⟨S1600000x5, .f32⟩
  | .hbm, ⟨39, _⟩ => ⟨S1600000x100, .f32⟩
  | .hbm, ⟨40, _⟩ => ⟨S1x100, .f32⟩
  | .hbm, ⟨41, _⟩ => ⟨S1600000x100, .f32⟩
  | .hbm, ⟨42, _⟩ => ⟨S1600000x100, .f32⟩
  | .hbm, ⟨43, _⟩ => ⟨S_, .f32⟩
  | .hbm, ⟨44, _⟩ => ⟨S1600000x100, .f32⟩
  | .hbm, ⟨45, _⟩ => ⟨S1600000x100, .f32⟩
  | .hbm, ⟨46, _⟩ => ⟨S1600000x100, .f32⟩
  | .hbm, ⟨47, _⟩ => ⟨S1x100, .f32⟩
  | .hbm, ⟨48, _⟩ => ⟨S1600000x100, .f32⟩
  | .hbm, ⟨49, _⟩ => ⟨S1600000x100, .f32⟩
  | .hbm, ⟨50, _⟩ => ⟨S_, .f32⟩
  | .hbm, ⟨51, _⟩ => ⟨S1600000x100, .f32⟩
  | .hbm, ⟨52, _⟩ => ⟨S1600000x100, .f32⟩
  | .hbm, ⟨53, _⟩ => ⟨S1600000x100, .f32⟩
  | .hbm, ⟨54, _⟩ => ⟨S1x100, .f32⟩
  | .hbm, ⟨55, _⟩ => ⟨S1600000x100, .f32⟩
  | .hbm, ⟨56, _⟩ => ⟨S1600000x100, .f32⟩
  | .hbm, ⟨57, _⟩ => ⟨S_, .f32⟩
  | .hbm, ⟨58, _⟩ => ⟨S1600000x100, .f32⟩
  | .hbm, ⟨59, _⟩ => ⟨S1600000x100, .f32⟩
  | .hbm, ⟨60, _⟩ => ⟨S1600000x100, .f32⟩
  | .hbm, ⟨61, _⟩ => ⟨S1x100, .f32⟩
  | .hbm, ⟨62, _⟩ => ⟨S1600000x100, .f32⟩
  | .hbm, ⟨63, _⟩ => ⟨S1600000x100, .f32⟩
  | .hbm, ⟨64, _⟩ => ⟨S_, .f32⟩
  | .hbm, ⟨65, _⟩ => ⟨S1600000x100, .f32⟩
  | .hbm, ⟨66, _⟩ => ⟨S1600000x100, .f32⟩
  | .hbm, ⟨67, _⟩ => ⟨S_, .f32⟩
  | .hbm, ⟨68, _⟩ => ⟨S100000x100, .f32⟩
  | .hbm, ⟨69, _⟩ => ⟨S1600000x1, .i32⟩
  | .hbm, ⟨70, _⟩ => ⟨S100000x100, .f32⟩
  | .hbm, ⟨71, _⟩ => ⟨S100000x102, .f32⟩
  | .hbm, ⟨72, _⟩ => ⟨S100000x100, .f32⟩
  | .hbm, ⟨73, _⟩ => ⟨S1x100, .f32⟩
  | .hbm, ⟨74, _⟩ => ⟨S100000x100, .f32⟩
  | .hbm, ⟨75, _⟩ => ⟨S100000x100, .f32⟩
  | .hbm, ⟨76, _⟩ => ⟨S_, .f32⟩
  | .hbm, ⟨77, _⟩ => ⟨S100000x100, .f32⟩
  | .hbm, ⟨78, _⟩ => ⟨S100000x100, .f32⟩
  | .hbm, ⟨79, _⟩ => ⟨S100000x2, .f32⟩
  | .hbm, ⟨80, _⟩ => ⟨S1x2, .f32⟩
  | .hbm, ⟨81, _⟩ => ⟨S100000x2, .f32⟩
  | .hbm, ⟨82, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_cst : Ref sig .tc := ⟨.hbm, 43, rfl⟩
abbrev main_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_cst : Ref sig .tc := ⟨.hbm, 50, rfl⟩
abbrev main_call1_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call2_cst : Ref sig .tc := ⟨.hbm, 57, rfl⟩
abbrev main_call2_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call3_cst : Ref sig .tc := ⟨.hbm, 64, rfl⟩
abbrev main_call3_v0 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call4_cst : Ref sig .tc := ⟨.hbm, 76, rfl⟩
abbrev main_call4_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x2_S1600000x2_S1600000x1_S1600000x5_d1 : Shape.Concatenates [S1600000x2, S1600000x2, S1600000x1] S1600000x5 1
  bcast_S100_S1x100_1 : S100.BroadcastsInDim S1x100 (![1] : Fin 1 → Fin S1x100.rank)
  bcast_S1x100_S1600000x100_0_1 : S1x100.BroadcastsInDim S1600000x100 (![0, 1] : Fin 2 → Fin S1600000x100.rank)
  bcast_S_S1600000x100 : S_.BroadcastsInDim S1600000x100 (![] : Fin 0 → Fin S1600000x100.rank)
  bcast_S_S100000x100 : S_.BroadcastsInDim S100000x100 (![] : Fin 0 → Fin S100000x100.rank)
  concatenates_S100000x2_S100000x100_S100000x102_d1 : Shape.Concatenates [S100000x2, S100000x100] S100000x102 1
  bcast_S1x100_S100000x100_0_1 : S1x100.BroadcastsInDim S100000x100 (![0, 1] : Fin 2 → Fin S100000x100.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x2_S1600000x1_S1600000x2_1_0_n_n_0_1_12_wf : GatherDims.WF S100000x2 S1600000x1 S1600000x2 [1] [0] [] [0] [] 1 ![1, 2]
  dot_S1600000x5_S5x100_S1600000x100_1_0_0_1_n_n_wf : DotDims.WF S1600000x5 S5x100 S1600000x100 [1] [0] [0] [1] [] []
  dot_S1600000x100_S100x100_S1600000x100_1_0_0_1_n_n_wf : DotDims.WF S1600000x100 S100x100 S1600000x100 [1] [0] [0] [1] [] []
  scatter_S100000x100_S1600000x1_S1600000x100_1_0_0_1_wf : ScatterDims.WF S100000x100 S1600000x1 S1600000x100 [1] [0] [0] 1
  dot_S100000x102_S102x100_S100000x100_1_0_0_1_n_n_wf : DotDims.WF S100000x102 S102x100 S100000x100 [1] [0] [0] [1] [] []
  dot_S100000x100_S100x2_S100000x2_1_0_0_1_n_n_wf : DotDims.WF S100000x100 S100x2 S100000x2 [1] [0] [0] [1] [] []

variable [Facts₀]

def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def dot_S1600000x5_S5x100_S1600000x100_1_0_0_1_n_n : DotDims S1600000x5 S5x100 S1600000x100 where
  lhsContracting := [1]
  rhsContracting := [0]
  lhsNonContracting := [0]
  rhsNonContracting := [1]
  lhsBatch := []
  rhsBatch := []
  wf := dot_S1600000x5_S5x100_S1600000x100_1_0_0_1_n_n_wf
def dot_S1600000x100_S100x100_S1600000x100_1_0_0_1_n_n : DotDims S1600000x100 S100x100 S1600000x100 where
  lhsContracting := [1]
  rhsContracting := [0]
  lhsNonContracting := [0]
  rhsNonContracting := [1]
  lhsBatch := []
  rhsBatch := []
  wf := dot_S1600000x100_S100x100_S1600000x100_1_0_0_1_n_n_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S100000x102_S102x100_S100000x100_1_0_0_1_n_n : DotDims S100000x102 S102x100 S100000x100 where
  lhsContracting := [1]
  rhsContracting := [0]
  lhsNonContracting := [0]
  rhsNonContracting := [1]
  lhsBatch := []
  rhsBatch := []
  wf := dot_S100000x102_S102x100_S100000x100_1_0_0_1_n_n_wf
def dot_S100000x100_S100x2_S100000x2_1_0_0_1_n_n : DotDims S100000x100 S100x2 S100000x2 where
  lhsContracting := [1]
  rhsContracting := [0]
  lhsNonContracting := [0]
  rhsNonContracting := [1]
  lhsBatch := []
  rhsBatch := []
  wf := dot_S100000x100_S100x2_S100000x2_1_0_0_1_n_n_wf

class Facts : Prop extends Facts₀ where

variable [Facts]
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibDenseRow.lean ====
/-
  Affine layers on one row, over the extended reals.

  An affine layer takes a row `x` of `K` entries to the row `n ↦ (∑ k, x k · W k n) + b n`; the rectifier is `max · 0`.
  Two rows laid side by side. A last entry equal to zero contributes nothing to an affine layer, because `0 · w = 0`
  for every extended real `w`, infinite ones included: the layer is the one on the entries before it with the weight rows
  before the last. No entry is asked to be finite anywhere here.
-/
import Idealize.ShloMosaic.PureOps.Ideal

noncomputable section

open scoped BigOperators

namespace Cert.Proof.DenseRow

/-- The rectifier on the extended reals. -/
def relu (x : EReal) : EReal := max x 0

/-- An affine layer on one row: `n ↦ (∑ k, x k · W k n) + b n`. -/
def dense {K N : ℕ} (x : Fin K → EReal) (W : Fin K → Fin N → EReal) (b : Fin N → EReal) : Fin N → EReal :=
  fun n => (∑ k : Fin K, x k * W k n) + b n

/-- An affine layer followed by the rectifier. -/
def reluDense {K N : ℕ} (x : Fin K → EReal) (W : Fin K → Fin N → EReal) (b : Fin N → EReal) : Fin N → EReal :=
  fun n => relu (dense x W b n)

/-- Two rows laid side by side: the first `A` entries are `a`'s, the next `B` are `b`'s. -/
def cat2 {A B : ℕ} (a : Fin A → EReal) (b : Fin B → EReal) (C : ℕ) : Fin C → EReal :=
  fun k => if h : k.val < A then a ⟨k.val, h⟩ else if h' : k.val - A < B then b ⟨k.val - A, h'⟩ else 0

/-- A last entry equal to zero contributes nothing to an affine layer: the layer is the one on the entries
    before it, with the weight rows before the last. -/
theorem dense_castSucc {K N : ℕ} (x : Fin (K + 1) → EReal) (W : Fin (K + 1) → Fin N → EReal) (b : Fin N → EReal)
    (h : x (Fin.last K) = 0) :
    dense x W b = dense (fun k : Fin K => x k.castSucc) (fun k : Fin K => W k.castSucc) b := by
  funext n
  unfold dense
  rw [Fin.sum_univ_castSucc, h, zero_mul, add_zero]

end Cert.Proof.DenseRow

end
-- ==== Proof.LibAffineLayer.lean ====
/-
  One affine layer as the vector unit spells it and as the host spells it, each as ONE function of the whole arrays,
  on the extended reals, generic in the extents.

  The vector unit: the product of an `M × K` array with a `K × N` array into a zero accumulator, plus a `[1, N]` bias
  row spread over the `M` rows. The host: the `dot_general` of the two arrays plus a `[N]` bias vector placed on a unit
  row and spread over the rows. Either way the entry at `(r, n)` is the affine layer of row `r`:
  `(∑ k, X (r, k) · W (k, n)) + b n`. The rectifier is the maximum with a zero word, splat by the vector unit or
  broadcast from a scalar by the host; a change of float format keeps every entry.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«101774_j59004260712594_1_alg».proof.Proof.LibPlainDot
import proofs.«101774_j59004260712594_1_alg».proof.Proof.LibDenseRow

noncomputable section

open scoped BigOperators

namespace Cert.Proof.Layers

open Idealize.ShloMosaic Idealize.ShloMosaic.ValueIdx Cert.Proof.DenseRow

/-- The maximum with a splat f32 zero word is the rectifier, entry by entry. -/
theorem relu_splat {s : Shape} (x : FVec Ideal s .f32) :
    maximumf x (broadcast s (Scalar.ofBits .f32 0x00000000#32)) = fun i => relu (x i) := by
  funext i
  show max (x i) (Ideal.ofBits .f32 0x00000000#32) = max (x i) 0
  rw [Ideal.ofBits_zero_f32]

/-- The maximum with a scalar f32 zero constant broadcast to the whole shape is the rectifier, entry by entry. -/
theorem relu_bcast {s : Shape} (x : FVec Ideal s .f32) (h : (⟨0, ![]⟩ : Shape).BroadcastsInDim s ![]) :
    maximumf x (broadcastInDim s ![] h (constant (F := Ideal) ⟨0, ![]⟩ .f32 0x00000000#32)) = fun i => relu (x i) := by
  funext i
  show max (x i) (broadcastInDim s ![] h (constant (F := Ideal) ⟨0, ![]⟩ .f32 0x00000000#32) i) = max (x i) 0
  rw [broadcastInDim_apply ![] h _ i ix0 (fun a => a.elim0), constant_apply, Ideal.ofBits_zero_f32]

/-- A change of float format keeps the array. -/
theorem truncf_eq {s : Shape} {φ ψ : FTy} (a : FVec Ideal s φ) (h : ψ.bits < φ.bits) :
    (truncf ψ a h : FVec Ideal s ψ) = fun i => a i := rfl

/-- The vector unit's affine layer: entry `(r, n)` is the affine layer of row `r` of `X`. -/
theorem vpu_affine {M K N : ℕ} {φ₁ φ₂ : FTy} (X : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) :
    addf (matmul (DotDims.plain M K N) none X W (constant ⟨2, ![M, N]⟩ .f32 0x00000000#32)) (broadcastTo ⟨2, ![M, N]⟩ b hb)
      = fun i => dense (fun k => X (ix2 (i 0) k)) (fun k n => W (ix2 k n)) (fun n => b (ix2 (0 : Fin 1) n)) (i 1) := by
  funext i
  obtain ⟨r, n, rfl⟩ : ∃ (r : Fin M) (n : Fin N), i = ix2 r n := ⟨i 0, i 1, eq_ix2 i⟩
  refine (addf_apply _ _ _).trans (congrArg₂ (· + ·) ?_ ?_)
  · exact Cert.Proof.PlainDot.matmul_plain_zero none X W (ix2 r n)
  · exact broadcastTo_1b_ab_apply b hb r n

/-- The host's affine layer: entry `(r, n)` is the affine layer of row `r` of `X`. -/
theorem host_affine {M K N : ℕ} (X : FVec Ideal ⟨2, ![M, K]⟩ .f32) (W : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (DotDims.plain M K N) none X W)
        (broadcastInDim ⟨2, ![M, N]⟩ ![0, 1] h2 (broadcastInDim ⟨2, ![1, N]⟩ ![1] h1 b))
      = fun i => dense (fun k => X (ix2 (i 0) k)) (fun k n => W (ix2 k n)) (fun n => b (ix1 n)) (i 1) := by
  funext i
  obtain ⟨r, n, rfl⟩ : ∃ (r : Fin M) (n : Fin N), i = ix2 r n := ⟨i 0, i 1, eq_ix2 i⟩
  refine (addf_apply _ _ _).trans (congrArg₂ (· + ·) ?_ ?_)
  · simp only [Host.dotGeneral]
    exact Cert.Proof.PlainDot.dotGeneral_plain none _ X W (ix2 r n)
  · rw [broadcastInDim_apply ![0, 1] h2 _ (ix2 r n) (ix2 (0 : Fin 1) n) (fun a => by
      match a with
      | ⟨0, _⟩ => rfl
      | ⟨1, _⟩ =>
        show n.val = if N = 1 then 0 else n.val
        split
        · have := n.isLt; omega
        · rfl)]
    exact broadcastInDim_apply ![1] h1 b (ix2 (0 : Fin 1) n) (ix1 n) (fun a => by
      match a with
      | ⟨0, _⟩ =>
        show n.val = if N = 1 then 0 else n.val
        split
        · have := n.isLt; omega
        · rfl)

end Cert.Proof.Layers

end
-- ==== Proof.Mlp.lean ====
/-
  The two small networks of this kernel, one row at a time, over the extended reals.

  The relation network sends the features of an edge (the two coordinates of its sender and of its receiver) through
  four rectified affine layers; the object network sends the 102 features of a node (its two coordinates and the 100
  sums of the effects of the edges it sends) through one rectified affine layer and one affine layer.
-/
import proofs.«101774_j59004260712594_1_alg».proof.Proof.LibDenseRow

noncomputable section

namespace Cert.Proof.Mlp

open Cert.Proof.DenseRow

/-- The relation network on one edge's features: four rectified affine layers. -/
def relRow {K : ℕ} (x : Fin K → EReal) (W1 : Fin K → Fin 100 → EReal) (b1 : Fin 100 → EReal)
    (W2 : Fin 100 → Fin 100 → EReal) (b2 : Fin 100 → EReal) (W3 : Fin 100 → Fin 100 → EReal) (b3 : Fin 100 → EReal)
    (W4 : Fin 100 → Fin 100 → EReal) (b4 : Fin 100 → EReal) : Fin 100 → EReal :=
  reluDense (reluDense (reluDense (reluDense x W1 b1) W2 b2) W3 b3) W4 b4

/-- The object network on one node's features: a rectified affine layer, then an affine layer. -/
def objRow (x : Fin 102 → EReal) (W1 : Fin 102 → Fin 100 → EReal) (b1 : Fin 100 → EReal)
    (W2 : Fin 100 → Fin 2 → EReal) (b2 : Fin 2 → EReal) : Fin 2 → EReal :=
  dense (reluDense x W1 b1) W2 b2

end Cert.Proof.Mlp

end
-- ==== Proof.Spec.lean ====
/-
  The two whole arrays of this kernel, over the extended reals, as functions of arrays and of weights given entry by entry.

  The effects array: row `e` is the relation network of the four features of edge `e` — the two coordinates gathered for
  its sender laid beside the two gathered for its receiver. The result array: row `n` is the object network of node `n`'s
  two coordinates laid beside its 100 summed effects. Both programs are shown to compute exactly these two functions,
  around the same gather and the same sum over each node's outgoing edges.
-/
import Idealize.ShloMosaic.Lib.ValueIdx
import Idealize.ShloMosaic.Lib.Pipeline.Value
import proofs.«101774_j59004260712594_1_alg».proof.Proof.Mlp
import proofs.«101774_j59004260712594_1_alg».proof.Proof.LibDenseRow

noncomputable section

namespace Cert.Proof.Spec

open Idealize.ShloMosaic Idealize.ShloMosaic.ValueIdx Cert.Proof.DenseRow Cert.Proof.Mlp

/-- The effects of all edges: the relation network of each edge's gathered sender and receiver coordinates. -/
def relArrF (g1 g2 : (⟨2, ![1600000, 2]⟩ : Shape).Idx → EReal) (W1 : Fin 4 → Fin 100 → EReal) (b1 : Fin 100 → EReal)
    (W2 : Fin 100 → Fin 100 → EReal) (b2 : Fin 100 → EReal) (W3 : Fin 100 → Fin 100 → EReal) (b3 : Fin 100 → EReal)
    (W4 : Fin 100 → Fin 100 → EReal) (b4 : Fin 100 → EReal) : (⟨2, ![1600000, 100]⟩ : Shape).Idx → EReal :=
  fun i => relRow (cat2 (fun a : Fin 2 => g1 (ix2 (i 0) a)) (fun b : Fin 2 => g2 (ix2 (i 0) b)) 4) W1 b1 W2 b2 W3 b3 W4 b4 (i 1)

/-- The result for all nodes: the object network of each node's coordinates and summed effects. -/
def objArrF (X : (⟨2, ![100000, 2]⟩ : Shape).Idx → EReal) (A : (⟨2, ![100000, 100]⟩ : Shape).Idx → EReal)
    (W1 : Fin 102 → Fin 100 → EReal) (b1 : Fin 100 → EReal) (W2 : Fin 100 → Fin 2 → EReal) (b2 : Fin 2 → EReal) :
    (⟨2, ![100000, 2]⟩ : Shape).Idx → EReal :=
  fun i => objRow (cat2 (fun a : Fin 2 => X (ix2 (i 0) a)) (fun b : Fin 100 => A (ix2 (i 0) b)) 102) W1 b1 W2 b2 (i 1)

end Cert.Proof.Spec

end
-- ==== Proof.LibConcatAt.lean ====
/-
  Matrices with the same number of rows laid side by side, read at an index known by its coordinates' values.

  Two pieces `x₁ : [n, a]`, `x₂ : [n, b]` joined along the columns into `[n, c]`: at an index whose row is `r` and
  whose column is `k < a` the joined array is `x₁ (r, k)`; at column `a + k` with `k < b` it is `x₂ (r, k)`.
  Three pieces `[n, a0]`, `[n, a1]`, `[n, a2]`: piece `p` starts at the sum of the extents before it, so columns
  `k`, `a0 + k`, `a0 + a1 + k` read pieces 0, 1, 2 at `(r, k)`.
  The index is ANY index of the joined shape with its two coordinates given as equations between naturals: the form in
  which a contraction's operand index arrives.
-/
import Idealize.ShloMosaic.Lib.ValueIdx
import Idealize.ShloMosaic.Lib.Pipeline.Value

noncomputable section

namespace Cert.Proof.ConcatAt

open Idealize.ShloMosaic Idealize.ShloMosaic.ValueIdx

variable {α : Type}

/-- Two pieces, a column of the left one. -/
theorem pair_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin a) (hr : (j 0).val = r.val) (hk : (j 1).val = k.val) :
    concatenate ⟨2, ![n, c]⟩ (1 : Fin 2) [⟨⟨2, ![n, a]⟩, x₁⟩, ⟨⟨2, ![n, b]⟩, x₂⟩] h j = x₁ (ix2 r k) :=
  concatenate_pair_apply_left (1 : Fin 2) x₁ x₂ h j rfl (ix2 r k) (fun bx => by
    match bx with
    | ⟨0, _⟩ => exact hr.symm
    | ⟨1, _⟩ => exact hk.symm)

/-- Two pieces, a column of the right one. -/
theorem pair_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin b) (hr : (j 0).val = r.val) (hk : (j 1).val = a + k.val) :
    concatenate ⟨2, ![n, c]⟩ (1 : Fin 2) [⟨⟨2, ![n, a]⟩, x₁⟩, ⟨⟨2, ![n, b]⟩, x₂⟩] h j = x₂ (ix2 r k) :=
  concatenate_pair_apply_right (1 : Fin 2) x₁ x₂ h j rfl rfl (ix2 r k) (fun bx hb => by
    match bx with
    | ⟨0, _⟩ => exact hr.symm
    | ⟨1, _⟩ => exact absurd rfl hb)
    (by show k.val + a = (j 1).val; omega)

/-- Three pieces, a column of piece 0. -/
theorem three_0 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a0) (hr : (j 0).val = r.val) (hk : (j 1).val = k.val) :
    concatenate ⟨2, ![n, c]⟩ (1 : Fin 2) [⟨⟨2, ![n, a0]⟩, x0⟩, ⟨⟨2, ![n, a1]⟩, x1⟩, ⟨⟨2, ![n, a2]⟩, x2⟩] h j = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    0 (by simp) ⟨2, ![n, a0]⟩ x0 rfl rfl 0 (by simp) (ix2 r k) (fun bx hb => by
      match bx with
      | ⟨0, _⟩ => exact hr.symm
      | ⟨1, _⟩ => exact absurd rfl hb) (by show 0 + k.val = (j 1).val; omega)

/-- Three pieces, a column of piece 1. -/
theorem three_1 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a1) (hr : (j 0).val = r.val) (hk : (j 1).val = a0 + k.val) :
    concatenate ⟨2, ![n, c]⟩ (1 : Fin 2) [⟨⟨2, ![n, a0]⟩, x0⟩, ⟨⟨2, ![n, a1]⟩, x1⟩, ⟨⟨2, ![n, a2]⟩, x2⟩] h j = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    1 (by simp) ⟨2, ![n, a1]⟩ x1 rfl rfl a0 (by simp) (ix2 r k) (fun bx hb => by
      match bx with
      | ⟨0, _⟩ => exact hr.symm
      | ⟨1, _⟩ => exact absurd rfl hb) (by show a0 + k.val = (j 1).val; omega)

/-- Three pieces, a column of piece 2. -/
theorem three_2 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a2) (hr : (j 0).val = r.val) (hk : (j 1).val = a0 + a1 + k.val) :
    concatenate ⟨2, ![n, c]⟩ (1 : Fin 2) [⟨⟨2, ![n, a0]⟩, x0⟩, ⟨⟨2, ![n, a1]⟩, x1⟩, ⟨⟨2, ![n, a2]⟩, x2⟩] h j = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    2 (by simp) ⟨2, ![n, a2]⟩ x2 rfl rfl (a0 + a1) (by simp) (ix2 r k) (fun bx hb => by
      match bx with
      | ⟨0, _⟩ => exact hr.symm
      | ⟨1, _⟩ => exact absurd rfl hb) (by show a0 + a1 + k.val = (j 1).val; omega)

end Cert.Proof.ConcatAt

end
-- ==== Proof.LibConcatRow.lean ====
/-
  Matrices with the same rows laid side by side, read along one row, over the extended reals.

  Two pieces `[M, A]`, `[M, B]` joined along the columns: row `r` of the joined array is row `r` of the first followed
  by row `r` of the second. Three pieces whose last is a single column: the columns before the last are the first two
  pieces' rows side by side, and the last column is the third piece's entry.
-/
import Idealize.ShloMosaic.Lib.ValueIdx
import Idealize.ShloMosaic.Lib.Pipeline.Value
import proofs.«101774_j59004260712594_1_alg».proof.Proof.LibDenseRow
import proofs.«101774_j59004260712594_1_alg».proof.Proof.LibConcatAt

noncomputable section

namespace Cert.Proof.ConcatRow

open Idealize.ShloMosaic Idealize.ShloMosaic.ValueIdx Cert.Proof.DenseRow

/-- Side by side along the columns, read along row `r`: the first `A` columns are the left array's row, the next
    `B` the right array's. -/
theorem concat_row {M A B C : ℕ} (hC : A + B = C) (X : (⟨2, ![M, A]⟩ : Shape).Idx → EReal) (Y : (⟨2, ![M, B]⟩ : Shape).Idx → EReal)
    (h : Shape.Concatenates [(⟨2, ![M, A]⟩ : Shape), ⟨2, ![M, B]⟩] ⟨2, ![M, C]⟩ (1 : Fin 2)) (r : Fin M) :
    (fun k : Fin C => concatenate ⟨2, ![M, C]⟩ (1 : Fin 2) [⟨⟨2, ![M, A]⟩, X⟩, ⟨⟨2, ![M, B]⟩, Y⟩] h (ix2 r k))
      = cat2 (fun a => X (ix2 r a)) (fun b => Y (ix2 r b)) C := by
  funext k
  unfold cat2
  have hk := k.isLt
  split
  · rename_i h1
    exact Cert.Proof.ConcatAt.pair_left X Y h (ix2 r k) r ⟨k.val, h1⟩ rfl rfl
  · rename_i h1
    have h2 : k.val - A < B := by omega
    rw [dif_pos h2]
    exact Cert.Proof.ConcatAt.pair_right X Y h (ix2 r k) r ⟨k.val - A, h2⟩ rfl (by show k.val = A + (k.val - A); omega)

/-- Three arrays side by side with a last column of one entry, read along row `r` at the columns before the last:
    the first two arrays' rows side by side. -/
theorem concat3_row_init {M A B : ℕ} (X : (⟨2, ![M, A]⟩ : Shape).Idx → EReal) (Y : (⟨2, ![M, B]⟩ : Shape).Idx → EReal)
    (Z : (⟨2, ![M, 1]⟩ : Shape).Idx → EReal)
    (h : Shape.Concatenates [(⟨2, ![M, A]⟩ : Shape), (⟨2, ![M, B]⟩ : Shape), (⟨2, ![M, 1]⟩ : Shape)] ⟨2, ![M, A + B + 1]⟩ (1 : Fin 2)) (r : Fin M) :
    (fun k : Fin (A + B) => concatenate ⟨2, ![M, A + B + 1]⟩ (1 : Fin 2) [⟨⟨2, ![M, A]⟩, X⟩, ⟨⟨2, ![M, B]⟩, Y⟩, ⟨⟨2, ![M, 1]⟩, Z⟩] h (ix2 r k.castSucc))
      = cat2 (fun a => X (ix2 r a)) (fun b => Y (ix2 r b)) (A + B) := by
  funext k
  unfold cat2
  have hk := k.isLt
  split
  · rename_i h1
    exact Cert.Proof.ConcatAt.three_0 X Y Z h (ix2 r k.castSucc) r ⟨k.val, h1⟩ rfl rfl
  · rename_i h1
    have h2 : k.val - A < B := by omega
    rw [dif_pos h2]
    exact Cert.Proof.ConcatAt.three_1 X Y Z h (ix2 r k.castSucc) r ⟨k.val - A, h2⟩ rfl (by show k.val = A + (k.val - A); omega)

/-- … and at the last column: the third array's one column. -/
theorem concat3_row_last {M A B : ℕ} (X : (⟨2, ![M, A]⟩ : Shape).Idx → EReal) (Y : (⟨2, ![M, B]⟩ : Shape).Idx → EReal)
    (Z : (⟨2, ![M, 1]⟩ : Shape).Idx → EReal)
    (h : Shape.Concatenates [(⟨2, ![M, A]⟩ : Shape), (⟨2, ![M, B]⟩ : Shape), (⟨2, ![M, 1]⟩ : Shape)] ⟨2, ![M, A + B + 1]⟩ (1 : Fin 2)) (r : Fin M) :
    concatenate ⟨2, ![M, A + B + 1]⟩ (1 : Fin 2) [⟨⟨2, ![M, A]⟩, X⟩, ⟨⟨2, ![M, B]⟩, Y⟩, ⟨⟨2, ![M, 1]⟩, Z⟩] h (ix2 r (Fin.last (A + B)))
      = Z (ix2 r (0 : Fin 1)) :=
  Cert.Proof.ConcatAt.three_2 X Y Z h (ix2 r (Fin.last (A + B))) r (0 : Fin 1) rfl (by show A + B = A + B + 0; omega)

end Cert.Proof.ConcatRow

end
-- ==== Proof.Payload.lean ====
/-
  What each grid point of the two kernels writes, as a function of the blocks it loads, on the extended reals.

  A point of the relation kernel loads a block of 6400 edges' four features and the four layers' weights and bias rows,
  and stores, for each of its edges, the relation network of that edge's features. A point of the object kernel loads a
  block of 10000 nodes' two coordinates and their 100 summed effects, lays them side by side, and stores, for each of its
  nodes, the object network of those 102 features. Each body's stored value is a chain of matrix products into zero
  accumulators, bias rows spread over the rows, rectifiers and changes of float format; read entry by entry it is the row
  network of `Mlp`.
-/
import proofs.«101774_j59004260712594_1_alg».proof.Proof.Gen.KernelIdeal.Frame
import proofs.«101774_j59004260712594_1_alg».proof.Proof.LibAffineLayer
import proofs.«101774_j59004260712594_1_alg».proof.Proof.Spec
import proofs.«101774_j59004260712594_1_alg».proof.Proof.LibConcatRow

set_option maxRecDepth 16384

noncomputable section

open scoped BigOperators

namespace Cert.KernelIdeal.Payload

open Cert.KernelIdeal Cert.KernelIdeal.Gen
open Idealize.ShloMosaic Idealize.ShloMosaic.ValueIdx Cert.Proof.DenseRow Cert.Proof.Mlp Cert.Proof.Layers Cert.Proof.Spec Cert.Proof.ConcatRow

/-- The two zero offsets of a whole-block access, as a constant function. -/
theorem hz : (![0, 0] : Fin 2 → Nat) = fun _ => 0 := funext fun a => by fin_cases a <;> rfl

/-- The relation kernel's four products contract the second axis of the left array with the first of the right. -/
theorem dotA_eq : dot_S6400x4_S4x100_S6400x100_1_0_0_1_n_n = DotDims.plain 6400 4 100 := rfl
theorem dotB_eq : dot_S6400x100_S100x100_S6400x100_1_0_0_1_n_n = DotDims.plain 6400 100 100 := rfl
/-- So do the object kernel's two. -/
theorem dotC_eq : dot_S10000x102_S102x100_S10000x100_1_0_0_1_n_n = DotDims.plain 10000 102 100 := rfl
theorem dotD_eq : dot_S10000x100_S100x2_S10000x2_1_0_0_1_n_n = DotDims.plain 10000 100 2 := rfl

/-- What a point of the relation kernel leaves in its output block: entry `(p, q)` is the relation network of row `p`
    of the loaded features at output `q`. -/
theorem out0_9_eq (x0 : Vec Ideal S6400x4 .bf16) (x1 : Vec Ideal S4x100 .bf16) (x2 : Vec Ideal S1x100 .f32)
    (x3 : Vec Ideal S100x100 .bf16) (x4 : Vec Ideal S1x100 .f32) (x5 : Vec Ideal S100x100 .bf16) (x6 : Vec Ideal S1x100 .f32)
    (x7 : Vec Ideal S100x100 .bf16) (x8 : Vec Ideal S1x100 .f32) :
    out0_9 (F := Ideal) x0 x1 x2 x3 x4 x5 x6 x7 x8
      = fun j => relRow (fun k => x0 (ix2 (j 0) k)) (fun k n => x1 (ix2 k n)) (fun n => x2 (ix2 (0 : Fin 1) n))
          (fun k n => x3 (ix2 k n)) (fun n => x4 (ix2 (0 : Fin 1) n)) (fun k n => x5 (ix2 k n)) (fun n => x6 (ix2 (0 : Fin 1) n))
          (fun k n => x7 (ix2 k n)) (fun n => x8 (ix2 (0 : Fin 1) n)) (j 1) := by
  unfold out0_9
  rw [View.canon_unit_zero hz]
  simp only [View.ld_unit_zero (S := S6400x4) hz, View.ld_unit_zero (S := S4x100) hz, View.ld_unit_zero (S := S1x100) hz,
    View.ld_unit_zero (S := S100x100) hz]
  unfold k0_pay1 k0_pay2
  simp only [shapeCast_self, dotA_eq, dotB_eq]
  simp only [vpu_affine, relu_splat]
  rfl

/-- What a point of the object kernel leaves in its output block: entry `(p, q)` is the object network of the loaded
    coordinates and summed effects of row `p`, side by side, at output `q`. -/
theorem out1_6_eq (x0 : Vec Ideal S10000x2 .f32) (x1 : Vec Ideal S10000x100 .f32) (x2 : Vec Ideal S102x100 .bf16)
    (x3 : Vec Ideal S1x100 .f32) (x4 : Vec Ideal S100x2 .bf16) (x5 : Vec Ideal S1x2 .f32) :
    out1_6 (F := Ideal) x0 x1 x2 x3 x4 x5
      = fun j => objRow (cat2 (fun a : Fin 2 => x0 (ix2 (j 0) a)) (fun b : Fin 100 => x1 (ix2 (j 0) b)) 102)
          (fun k n => x2 (ix2 k n)) (fun n => x3 (ix2 (0 : Fin 1) n)) (fun k n => x4 (ix2 k n)) (fun n => x5 (ix2 (0 : Fin 1) n)) (j 1) := by
  unfold out1_6
  rw [View.canon_unit_zero hz]
  simp only [View.ld_unit_zero (S := S10000x2) hz, View.ld_unit_zero (S := S10000x100) hz, View.ld_unit_zero (S := S102x100) hz,
    View.ld_unit_zero (S := S1x100) hz, View.ld_unit_zero (S := S100x2) hz, View.ld_unit_zero (S := S1x2) hz]
  unfold k1_pay1
  rw [shapeCast_self x1 shapeCasts_S10000x100_S10000x100]
  simp only [shapeCast_self, dotC_eq, dotD_eq]
  simp only [vpu_affine, relu_splat]
  funext j
  obtain ⟨p, q, rfl⟩ : ∃ (p : Fin 10000) (q : Fin 2), j = ix2 p q := ⟨j 0, j 1, eq_ix2 j⟩
  show dense (fun k => relu (dense (fun k' => concatenate S10000x102 1 [⟨S10000x2, x0⟩, ⟨S10000x100, x1⟩]
        concatenates_S10000x2_S10000x100_S10000x102_d1 (ix2 p k')) (fun k n => x2 (ix2 k n)) (fun n => x3 (ix2 (0 : Fin 1) n)) k))
      (fun k n => x4 (ix2 k n)) (fun n => x5 (ix2 (0 : Fin 1) n)) q = _
  rw [concat_row (by norm_num) x0 x1 concatenates_S10000x2_S10000x100_S10000x102_d1 p]
  rfl

end Cert.KernelIdeal.Payload

end
-- ==== Proof.Blocks.lean ====
/-
  From the blocks to the whole arrays, for both kernels, at any contents `V` of the buffers when the kernel is entered.

  The relation kernel's grid has 250 points; point `t` loads rows `6400·t … 6400·t + 6399` of the edge features and
  writes the same rows of the effects; the weights and bias rows are loaded whole at every point. Since the relation
  network of an edge depends on that edge's row only, what point `t` writes is rows `6400·t …` of ONE array: the
  relation network applied to every row of the features. The 250 blocks cover the 1600000 rows, so the effects array
  ends as that array. The object kernel is the same with 10 blocks of 10000 nodes.
-/
import proofs.«101774_j59004260712594_1_alg».proof.Proof.Payload

set_option maxRecDepth 16384

noncomputable section

namespace Cert.KernelIdeal.Blocks

open Cert.KernelIdeal Cert.KernelIdeal.Gen Cert.KernelIdeal.Payload
open Idealize.ShloMosaic Idealize.ShloMosaic.TcCoe Idealize.ShloMosaic.ValueIdx Idealize.SL.Sem Cert.Proof.DenseRow Cert.Proof.Mlp
open Idealize.ShloMosaic.Pipeline (Dat Cfg Window)

/-- The relation network applied to every row of an array of edge features. -/
def relArr (B : Vec Ideal S1600000x4 .bf16) (W1 : Vec Ideal S4x100 .bf16) (b1 : Vec Ideal S1x100 .f32)
    (W2 : Vec Ideal S100x100 .bf16) (b2 : Vec Ideal S1x100 .f32) (W3 : Vec Ideal S100x100 .bf16) (b3 : Vec Ideal S1x100 .f32)
    (W4 : Vec Ideal S100x100 .bf16) (b4 : Vec Ideal S1x100 .f32) : Vec Ideal S1600000x100 .f32 :=
  fun i => relRow (fun k => B (ix2 (i 0) k)) (fun k n => W1 (ix2 k n)) (fun n => b1 (ix2 (0 : Fin 1) n))
    (fun k n => W2 (ix2 k n)) (fun n => b2 (ix2 (0 : Fin 1) n)) (fun k n => W3 (ix2 k n)) (fun n => b3 (ix2 (0 : Fin 1) n))
    (fun k n => W4 (ix2 k n)) (fun n => b4 (ix2 (0 : Fin 1) n)) (i 1)

/-- The object network applied to every node: its two coordinates and its 100 summed effects side by side. -/
def objArr (X : Vec Ideal S100000x2 .f32) (A : Vec Ideal S100000x100 .f32) (W1 : Vec Ideal S102x100 .bf16)
    (b1 : Vec Ideal S1x100 .f32) (W2 : Vec Ideal S100x2 .bf16) (b2 : Vec Ideal S1x2 .f32) : Vec Ideal S100000x2 .f32 :=
  fun i => objRow (cat2 (fun a : Fin 2 => X (ix2 (i 0) a)) (fun b : Fin 100 => A (ix2 (i 0) b)) 102)
    (fun k n => W1 (ix2 k n)) (fun n => b1 (ix2 (0 : Fin 1) n)) (fun k n => W2 (ix2 k n)) (fun n => b2 (ix2 (0 : Fin 1) n)) (i 1)

variable (V : (c : Dev nD) → (b : Ref sig .tc) → Buf (Elt Ideal) ((c : Thread nD τ).loc b))

/-! ## The relation kernel -/

/-- The printed index maps over the 250 points: the features' and the effects' block row is the point, every other
    block index is zero. -/
theorem idx_facts0 : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- A window loaded whole at every point: its block is the array. -/
theorem resident0_1 (c : Dev nD) (t : Fin cfg0.N) (r0 : win0_1.index t (0 : Fin 2) = 0) (r1 : win0_1.index t (1 : Fin 2) = 0) :
    iblk0 V c 1 t = V c main_v21 := by
  funext y
  show V c main_v21 (((cfg0.win 1).blk t).view.emb y) = V c main_v21 y
  refine congrArg (V c main_v21) (funext fun a => Fin.ext ?_)
  match a with
  | ⟨0, _⟩ => show win0_1.index t (0 : Fin 2) * 4 + 1 * (y 0).val = (y 0).val; rw [r0]; omega
  | ⟨1, _⟩ => show win0_1.index t (1 : Fin 2) * 100 + 1 * (y 1).val = (y 1).val; rw [r1]; omega
theorem resident0_2 (c : Dev nD) (t : Fin cfg0.N) (r0 : win0_2.index t (0 : Fin 2) = 0) (r1 : win0_2.index t (1 : Fin 2) = 0) :
    iblk0 V c 2 t = V c main_v25 := by
  funext y
  show V c main_v25 (((cfg0.win 2).blk t).view.emb y) = V c main_v25 y
  refine congrArg (V c main_v25) (funext fun a => Fin.ext ?_)
  match a with
  | ⟨0, _⟩ => show win0_2.index t (0 : Fin 2) * 1 + 1 * (y 0).val = (y 0).val; rw [r0]; omega
  | ⟨1, _⟩ => show win0_2.index t (1 : Fin 2) * 100 + 1 * (y 1).val = (y 1).val; rw [r1]; omega
theorem resident0_3 (c : Dev nD) (t : Fin cfg0.N) (r0 : win0_3.index t (0 : Fin 2) = 0) (r1 : win0_3.index t (1 : Fin 2) = 0) :
    iblk0 V c 3 t = V c main_v22 := by
  funext y
  show V c main_v22 (((cfg0.win 3).blk t).view.emb y) = V c main_v22 y
  refine congrArg (V c main_v22) (funext fun a => Fin.ext ?_)
  match a with
  | ⟨0, _⟩ => show win0_3.index t (0 : Fin 2) * 100 + 1 * (y 0).val = (y 0).val; rw [r0]; omega
  | ⟨1, _⟩ => show win0_3.index t (1 : Fin 2) * 100 + 1 * (y 1).val = (y 1).val; rw [r1]; omega
theorem resident0_4 (c : Dev nD) (t : Fin cfg0.N) (r0 : win0_4.index t (0 : Fin 2) = 0) (r1 : win0_4.index t (1 : Fin 2) = 0) :
    iblk0 V c 4 t = V c main_v26 := by
  funext y
  show V c main_v26 (((cfg0.win 4).blk t).view.emb y) = V c main_v26 y
  refine congrArg (V c main_v26) (funext fun a => Fin.ext ?_)
  match a with
  | ⟨0, _⟩ => show win0_4.index t (0 : Fin 2) * 1 + 1 * (y 0).val = (y 0).val; rw [r0]; omega
  | ⟨1, _⟩ => show win0_4.index t (1 : Fin 2) * 100 + 1 * (y 1).val = (y 1).val; rw [r1]; omega
theorem resident0_5 (c : Dev nD) (t : Fin cfg0.N) (r0 : win0_5.index t (0 : Fin 2) = 0) (r1 : win0_5.index t (1 : Fin 2) = 0) :
    iblk0 V c 5 t = V c main_v23 := by
  funext y
  show V c main_v23 (((cfg0.win 5).blk t).view.emb y) = V c main_v23 y
  refine congrArg (V c main_v23) (funext fun a => Fin.ext ?_)
  match a with
  | ⟨0, _⟩ => show win0_5.index t (0 : Fin 2) * 100 + 1 * (y 0).val = (y 0).val; rw [r0]; omega
  | ⟨1, _⟩ => show win0_5.index t (1 : Fin 2) * 100 + 1 * (y 1).val = (y 1).val; rw [r1]; omega
theorem resident0_6 (c : Dev nD) (t : Fin cfg0.N) (r0 : win0_6.index t (0 : Fin 2) = 0) (r1 : win0_6.index t (1 : Fin 2) = 0) :
    iblk0 V c 6 t = V c main_v27 := by
  funext y
  show V c main_v27 (((cfg0.win 6).blk t).view.emb y) = V c main_v27 y
  refine congrArg (V c main_v27) (funext fun a => Fin.ext ?_)
  match a with
  | ⟨0, _⟩ => show win0_6.index t (0 : Fin 2) * 1 + 1 * (y 0).val = (y 0).val; rw [r0]; omega
  | ⟨1, _⟩ => show win0_6.index t (1 : Fin 2) * 100 + 1 * (y 1).val = (y 1).val; rw [r1]; omega
theorem resident0_7 (c : Dev nD) (t : Fin cfg0.N) (r0 : win0_7.index t (0 : Fin 2) = 0) (r1 : win0_7.index t (1 : Fin 2) = 0) :
    iblk0 V c 7 t = V c main_v24 := by
  funext y
  show V c main_v24 (((cfg0.win 7).blk t).view.emb y) = V c main_v24 y
  refine congrArg (V c main_v24) (funext fun a => Fin.ext ?_)
  match a with
  | ⟨0, _⟩ => show win0_7.index t (0 : Fin 2) * 100 + 1 * (y 0).val = (y 0).val; rw [r0]; omega
  | ⟨1, _⟩ => show win0_7.index t (1 : Fin 2) * 100 + 1 * (y 1).val = (y 1).val; rw [r1]; omega
theorem resident0_8 (c : Dev nD) (t : Fin cfg0.N) (r0 : win0_8.index t (0 : Fin 2) = 0) (r1 : win0_8.index t (1 : Fin 2) = 0) :
    iblk0 V c 8 t = V c main_v28 := by
  funext y
  show V c main_v28 (((cfg0.win 8).blk t).view.emb y) = V c main_v28 y
  refine congrArg (V c main_v28) (funext fun a => Fin.ext ?_)
  match a with
  | ⟨0, _⟩ => show win0_8.index t (0 : Fin 2) * 1 + 1 * (y 0).val = (y 0).val; rw [r0]; omega
  | ⟨1, _⟩ => show win0_8.index t (1 : Fin 2) * 100 + 1 * (y 1).val = (y 1).val; rw [r1]; omega

/-- What a point flushes is what its body leaves, here as the row network of the point's blocks. -/
theorem flushed9_blocks (c : Dev nD) (t : Fin cfg0.N) :
    (dat0 V c).flushed 9 t = fun j => relRow (fun k => iblk0 V c 0 t (ix2 (j 0) k)) (fun k n => iblk0 V c 1 t (ix2 k n)) (fun n => iblk0 V c 2 t (ix2 (0 : Fin 1) n))
          (fun k n => iblk0 V c 3 t (ix2 k n)) (fun n => iblk0 V c 4 t (ix2 (0 : Fin 1) n)) (fun k n => iblk0 V c 5 t (ix2 k n)) (fun n => iblk0 V c 6 t (ix2 (0 : Fin 1) n))
          (fun k n => iblk0 V c 7 t (ix2 k n)) (fun n => iblk0 V c 8 t (ix2 (0 : Fin 1) n)) (j 1) := by
  refine Eq.trans ?_ (out0_9_eq _ _ _ _ _ _ _ _ _)
  show (cfg0.win 9).cut (grid0.coords t) ((dat0 V c).after 9 t) = _
  rw [after0_9]
  rfl

/-- An array read through point `t`'s output block, at the block's index `j`, is the array at the index the block puts `j` at. -/
theorem read9 (t : Fin cfg0.N) (G : Vec Ideal S1600000x100 .f32) (j : S6400x100.Idx) :
    ((cfg0.win 9).blk t).view.read (Elt Ideal) G j = G (((cfg0.win 9).blk t).view.emb j) := rfl

/-- The output block spans all 100 columns: a column of the block is that column of the array. -/
theorem col9 (t : Fin cfg0.N) (o1 : win0_9.index t (1 : Fin 2) = 0) (j : S6400x100.Idx) :
    (((cfg0.win 9).blk t).view.emb j) 1 = j 1 := Fin.ext (by
  show win0_9.index t (1 : Fin 2) * 100 + 1 * (j 1).val = (j 1).val; rw [o1]; omega)

/-- Row `p` of the features' block at a point is the features' row that row `p` of the output block is put at. -/
theorem row9 (c : Dev nD) (t : Fin cfg0.N) (a0 : win0_0.index t (0 : Fin 2) = t.val) (a1 : win0_0.index t (1 : Fin 2) = 0)
    (o0 : win0_9.index t (0 : Fin 2) = t.val) (j : S6400x100.Idx) (k : Fin 4) :
    iblk0 V c 0 t (ix2 (j 0) k) = V c main_v19 (ix2 ((((cfg0.win 9).blk t).view.emb j) 0) k) := by
  show V c main_v19 (((cfg0.win 0).blk t).view.emb (ix2 (j 0) k)) = _
  refine congrArg (V c main_v19) (funext fun a => Fin.ext ?_)
  match a with
  | ⟨0, _⟩ => show win0_0.index t (0 : Fin 2) * 6400 + 1 * (j 0).val = win0_9.index t (0 : Fin 2) * 6400 + 1 * (j 0).val; rw [a0, o0]
  | ⟨1, _⟩ => show win0_0.index t (1 : Fin 2) * 4 + 1 * k.val = k.val; rw [a1]; omega

/-- What point `t` writes back is block `t` of the relation network applied to every row of the features. -/
theorem flushed9_eq (c : Dev nD) (t : Fin cfg0.N) :
    (dat0 V c).flushed 9 t = ((cfg0.win 9).blk t).view.read (Elt Ideal)
      (relArr (V c main_v19) (V c main_v21) (V c main_v25) (V c main_v22) (V c main_v26) (V c main_v23) (V c main_v27)
        (V c main_v24) (V c main_v28)) := by
  obtain ⟨a0, a1, o0, o1, r10, r11, r20, r21, r30, r31, r40, r41, r50, r51, r60, r61, r70, r71, r80, r81⟩ := idx_facts0 t
  refine (flushed9_blocks V c t).trans ?_
  funext j
  refine Eq.trans ?_ (read9 t _ j).symm
  unfold relArr
  rw [col9 t o1 j, resident0_1 V c t r10 r11, resident0_2 V c t r20 r21, resident0_3 V c t r30 r31, resident0_4 V c t r40 r41,
    resident0_5 V c t r50 r51, resident0_6 V c t r60 r61, resident0_7 V c t r70 r71, resident0_8 V c t r80 r81]
  exact congrArg (fun f => relRow f _ _ _ _ _ _ _ _ (j 1)) (funext fun k => row9 V c t a0 a1 o0 j k)

/-- An index of the effects array is in point `t`'s block iff each coordinate is in the block's range on its axis. -/
theorem mem_blk9 (t : Fin cfg0.N) (i : S1600000x100.Idx) :
    i ∈ ((cfg0.win 9).blk t).view.set ↔ ∀ a : Fin 2, win0_9.index t a * S6400x100.size a ≤ (i a).val ∧ (i a).val < win0_9.index t a * S6400x100.size a + S6400x100.size a := by
  show i ∈ ((View.whole main_v29).slice (win0_9.rect t)).set ↔ _
  rw [View.set_slice_whole, Rect.mem_set_unit]
  exact Iff.rfl

/-- Every row of the effects array is in some point's block: row `r` in point `r / 6400`'s. -/
theorem cover9 (i : S1600000x100.Idx) : ∃ t : Fin cfg0.N, (cfg0.win 9).flush t = true ∧ i ∈ ((cfg0.win 9).blk t).view.set := by
  have hi0 : (i 0).val < 1600000 := (i 0).isLt
  have hi1 : (i 1).val < 100 := (i 1).isLt
  have hN : (i 0).val / 6400 < cfg0.N := by show (i 0).val / 6400 < grid0.N; rw [N_0]; omega
  refine ⟨⟨(i 0).val / 6400, hN⟩, flush0_9 _, ?_⟩
  obtain ⟨-, -, o0, o1, -⟩ := idx_facts0 ⟨(i 0).val / 6400, hN⟩
  rw [mem_blk9]
  intro a
  match a with
  | ⟨0, _⟩ =>
    show win0_9.index ⟨(i 0).val / 6400, hN⟩ (0 : Fin 2) * 6400 ≤ (i 0).val ∧ (i 0).val < win0_9.index ⟨(i 0).val / 6400, hN⟩ (0 : Fin 2) * 6400 + 6400
    rw [o0]; show (i 0).val / 6400 * 6400 ≤ (i 0).val ∧ (i 0).val < (i 0).val / 6400 * 6400 + 6400; omega
  | ⟨1, _⟩ =>
    show win0_9.index ⟨(i 0).val / 6400, hN⟩ (1 : Fin 2) * 100 ≤ (i 1).val ∧ (i 1).val < win0_9.index ⟨(i 0).val / 6400, hN⟩ (1 : Fin 2) * 100 + 100
    rw [o1]; omega

/-- The effects array after the relation kernel: the relation network applied to every row of the features. -/
theorem effects (c : Dev nD) : (dat0 V c).arrAt 9 cfg0.N
    = relArr (V c main_v19) (V c main_v21) (V c main_v25) (V c main_v22) (V c main_v26) (V c main_v23) (V c main_v27)
        (V c main_v24) (V c main_v28) :=
  (dat0 V c).arrAt_eq_of_cover 9 _ (fun t _ => flushed9_eq V c t) cover9

/-! ## The object kernel -/

/-- The printed index maps over the 10 points: the coordinates', the summed effects' and the result's block row is the
    point, every other block index is zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem resident1_2 (c : Dev nD) (t : Fin cfg1.N) (r0 : win1_2.index t (0 : Fin 2) = 0) (r1 : win1_2.index t (1 : Fin 2) = 0) :
    iblk1 V c 2 t = V c main_v33 := by
  funext y
  show V c main_v33 (((cfg1.win 2).blk t).view.emb y) = V c main_v33 y
  refine congrArg (V c main_v33) (funext fun a => Fin.ext ?_)
  match a with
  | ⟨0, _⟩ => show win1_2.index t (0 : Fin 2) * 102 + 1 * (y 0).val = (y 0).val; rw [r0]; omega
  | ⟨1, _⟩ => show win1_2.index t (1 : Fin 2) * 100 + 1 * (y 1).val = (y 1).val; rw [r1]; omega
theorem resident1_3 (c : Dev nD) (t : Fin cfg1.N) (r0 : win1_3.index t (0 : Fin 2) = 0) (r1 : win1_3.index t (1 : Fin 2) = 0) :
    iblk1 V c 3 t = V c main_v35 := by
  funext y
  show V c main_v35 (((cfg1.win 3).blk t).view.emb y) = V c main_v35 y
  refine congrArg (V c main_v35) (funext fun a => Fin.ext ?_)
  match a with
  | ⟨0, _⟩ => show win1_3.index t (0 : Fin 2) * 1 + 1 * (y 0).val = (y 0).val; rw [r0]; omega
  | ⟨1, _⟩ => show win1_3.index t (1 : Fin 2) * 100 + 1 * (y 1).val = (y 1).val; rw [r1]; omega
theorem resident1_4 (c : Dev nD) (t : Fin cfg1.N) (r0 : win1_4.index t (0 : Fin 2) = 0) (r1 : win1_4.index t (1 : Fin 2) = 0) :
    iblk1 V c 4 t = V c main_v34 := by
  funext y
  show V c main_v34 (((cfg1.win 4).blk t).view.emb y) = V c main_v34 y
  refine congrArg (V c main_v34) (funext fun a => Fin.ext ?_)
  match a with
  | ⟨0, _⟩ => show win1_4.index t (0 : Fin 2) * 100 + 1 * (y 0).val = (y 0).val; rw [r0]; omega
  | ⟨1, _⟩ => show win1_4.index t (1 : Fin 2) * 2 + 1 * (y 1).val = (y 1).val; rw [r1]; omega
theorem resident1_5 (c : Dev nD) (t : Fin cfg1.N) (r0 : win1_5.index t (0 : Fin 2) = 0) (r1 : win1_5.index t (1 : Fin 2) = 0) :
    iblk1 V c 5 t = V c main_v36 := by
  funext y
  show V c main_v36 (((cfg1.win 5).blk t).view.emb y) = V c main_v36 y
  refine congrArg (V c main_v36) (funext fun a => Fin.ext ?_)
  match a with
  | ⟨0, _⟩ => show win1_5.index t (0 : Fin 2) * 1 + 1 * (y 0).val = (y 0).val; rw [r0]; omega
  | ⟨1, _⟩ => show win1_5.index t (1 : Fin 2) * 2 + 1 * (y 1).val = (y 1).val; rw [r1]; omega

/-- What a point flushes is what its body leaves, here as the row network of the point's blocks. -/
theorem flushed6_blocks (c : Dev nD) (t : Fin cfg1.N) :
    (dat1 V c).flushed 6 t = fun j => objRow (cat2 (fun a : Fin 2 => iblk1 V c 0 t (ix2 (j 0) a)) (fun b : Fin 100 => iblk1 V c 1 t (ix2 (j 0) b)) 102)
          (fun k n => iblk1 V c 2 t (ix2 k n)) (fun n => iblk1 V c 3 t (ix2 (0 : Fin 1) n)) (fun k n => iblk1 V c 4 t (ix2 k n)) (fun n => iblk1 V c 5 t (ix2 (0 : Fin 1) n)) (j 1) := by
  refine Eq.trans ?_ (out1_6_eq _ _ _ _ _ _)
  show (cfg1.win 6).cut (grid1.coords t) ((dat1 V c).after 6 t) = _
  rw [after1_6]
  rfl

theorem read6 (t : Fin cfg1.N) (G : Vec Ideal S100000x2 .f32) (j : S10000x2.Idx) :
    ((cfg1.win 6).blk t).view.read (Elt Ideal) G j = G (((cfg1.win 6).blk t).view.emb j) := rfl

theorem col6 (t : Fin cfg1.N) (o1 : win1_6.index t (1 : Fin 2) = 0) (j : S10000x2.Idx) :
    (((cfg1.win 6).blk t).view.emb j) 1 = j 1 := Fin.ext (by
  show win1_6.index t (1 : Fin 2) * 2 + 1 * (j 1).val = (j 1).val; rw [o1]; omega)

/-- Row `p` of the coordinates' block at a point is the coordinates' row that row `p` of the output block is put at. -/
theorem rowx6 (c : Dev nD) (t : Fin cfg1.N) (a0 : win1_0.index t (0 : Fin 2) = t.val) (a1 : win1_0.index t (1 : Fin 2) = 0)
    (o0 : win1_6.index t (0 : Fin 2) = t.val) (j : S10000x2.Idx) (k : Fin 2) :
    iblk1 V c 0 t (ix2 (j 0) k) = V c main_arg0 (ix2 ((((cfg1.win 6).blk t).view.emb j) 0) k) := by
  show V c main_arg0 (((cfg1.win 0).blk t).view.emb (ix2 (j 0) k)) = _
  refine congrArg (V c main_arg0) (funext fun a => Fin.ext ?_)
  match a with
  | ⟨0, _⟩ => show win1_0.index t (0 : Fin 2) * 10000 + 1 * (j 0).val = win1_6.index t (0 : Fin 2) * 10000 + 1 * (j 0).val; rw [a0, o0]
  | ⟨1, _⟩ => show win1_0.index t (1 : Fin 2) * 2 + 1 * k.val = k.val; rw [a1]; omega

/-- The same for the summed effects' block. -/
theorem rowg6 (c : Dev nD) (t : Fin cfg1.N) (g0 : win1_1.index t (0 : Fin 2) = t.val) (g1 : win1_1.index t (1 : Fin 2) = 0)
    (o0 : win1_6.index t (0 : Fin 2) = t.val) (j : S10000x2.Idx) (k : Fin 100) :
    iblk1 V c 1 t (ix2 (j 0) k) = V c main_v32 (ix2 ((((cfg1.win 6).blk t).view.emb j) 0) k) := by
  show V c main_v32 (((cfg1.win 1).blk t).view.emb (ix2 (j 0) k)) = _
  refine congrArg (V c main_v32) (funext fun a => Fin.ext ?_)
  match a with
  | ⟨0, _⟩ => show win1_1.index t (0 : Fin 2) * 10000 + 1 * (j 0).val = win1_6.index t (0 : Fin 2) * 10000 + 1 * (j 0).val; rw [g0, o0]
  | ⟨1, _⟩ => show win1_1.index t (1 : Fin 2) * 100 + 1 * k.val = k.val; rw [g1]; omega

/-- What point `t` writes back is block `t` of the object network applied to every node. -/
theorem flushed6_eq (c : Dev nD) (t : Fin cfg1.N) :
    (dat1 V c).flushed 6 t = ((cfg1.win 6).blk t).view.read (Elt Ideal)
      (objArr (V c main_arg0) (V c main_v32) (V c main_v33) (V c main_v35) (V c main_v34) (V c main_v36)) := by
  obtain ⟨a0, a1, g0, g1, o0, o1, r20, r21, r30, r31, r40, r41, r50, r51⟩ := idx_facts1 t
  refine (flushed6_blocks V c t).trans ?_
  funext j
  refine Eq.trans ?_ (read6 t _ j).symm
  unfold objArr
  rw [col6 t o1 j, resident1_2 V c t r20 r21, resident1_3 V c t r30 r31, resident1_4 V c t r40 r41, resident1_5 V c t r50 r51]
  exact congrArg₂ (fun f g => objRow (cat2 f g 102) _ _ _ _ (j 1)) (funext fun k => rowx6 V c t a0 a1 o0 j k)
    (funext fun k => rowg6 V c t g0 g1 o0 j k)

/-- An index of the result array is in point `t`'s block iff each coordinate is in the block's range on its axis. -/
theorem mem_blk6 (t : Fin cfg1.N) (i : S100000x2.Idx) :
    i ∈ ((cfg1.win 6).blk t).view.set ↔ ∀ a : Fin 2, win1_6.index t a * S10000x2.size a ≤ (i a).val ∧ (i a).val < win1_6.index t a * S10000x2.size a + S10000x2.size a := by
  show i ∈ ((View.whole main_v37).slice (win1_6.rect t)).set ↔ _
  rw [View.set_slice_whole, Rect.mem_set_unit]
  exact Iff.rfl

/-- Every row of the result array is in some point's block: row `r` in point `r / 10000`'s. -/
theorem cover6 (i : S100000x2.Idx) : ∃ t : Fin cfg1.N, (cfg1.win 6).flush t = true ∧ i ∈ ((cfg1.win 6).blk t).view.set := by
  have hi0 : (i 0).val < 100000 := (i 0).isLt
  have hi1 : (i 1).val < 2 := (i 1).isLt
  have hN : (i 0).val / 10000 < cfg1.N := by show (i 0).val / 10000 < grid1.N; rw [N_1]; omega
  refine ⟨⟨(i 0).val / 10000, hN⟩, flush1_6 _, ?_⟩
  obtain ⟨-, -, -, -, o0, o1, -⟩ := idx_facts1 ⟨(i 0).val / 10000, hN⟩
  rw [mem_blk6]
  intro a
  match a with
  | ⟨0, _⟩ =>
    show win1_6.index ⟨(i 0).val / 10000, hN⟩ (0 : Fin 2) * 10000 ≤ (i 0).val ∧ (i 0).val < win1_6.index ⟨(i 0).val / 10000, hN⟩ (0 : Fin 2) * 10000 + 10000
    rw [o0]; show (i 0).val / 10000 * 10000 ≤ (i 0).val ∧ (i 0).val < (i 0).val / 10000 * 10000 + 10000; omega
  | ⟨1, _⟩ =>
    show win1_6.index ⟨(i 0).val / 10000, hN⟩ (1 : Fin 2) * 2 ≤ (i 1).val ∧ (i 1).val < win1_6.index ⟨(i 0).val / 10000, hN⟩ (1 : Fin 2) * 2 + 2
    rw [o1]; omega

/-- The result array after the object kernel: the object network applied to every node. -/
theorem result (c : Dev nD) : (dat1 V c).arrAt 6 cfg1.N
    = objArr (V c main_arg0) (V c main_v32) (V c main_v33) (V c main_v35) (V c main_v34) (V c main_v36) :=
  (dat1 V c).arrAt_eq_of_cover 6 _ (fun t _ => flushed6_eq V c t) cover6

end Cert.KernelIdeal.Blocks

end
-- ==== Proof.HostK.lean ====
/-
  The contents of the buffers the two kernels of the kernel program are entered with, and of the result, as functions of the
  program's arguments.

  Before the relation kernel the host gathers the sender's and the receiver's coordinates of every edge and lays them side
  by side (the edge features), cuts the first four rows off the first weight matrix, changes the float format of the four
  weight matrices and places each bias vector on a unit row. Between the two kernels it sums the effects over each node's
  outgoing edges, changes the format of the object network's two weight matrices and places its two bias vectors on unit
  rows. No host operation and neither kernel writes an argument.
-/
import proofs.«101774_j59004260712594_1_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

/-- The senders: row 0 of the edge list. -/
def edgeRow0 (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The receivers: row 1 of the edge list. -/
def edgeRow1 (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The rows of `x` named by a vector of node numbers (a negative number counted from the end first). -/
def gatherRows (x : FVec Ideal S100000x2 .f32) (v : (⟨S1600000, .i32⟩ : BufTy).Contents (Elt Ideal)) :
    FVec Ideal S1600000x2 .f32 :=
  Host.gather gather_S100000x2_S1600000x1_S1600000x2_1_0_n_n_0_1_12 x
    (broadcastInDim S1600000x1 ![0] bcast_S1600000_S1600000x1_0
      (select (cmpi .slt v (broadcastInDim S1600000 ![] bcast_S_S1600000 (constantI S_ 32 0#32)))
        (addi v (broadcastInDim S1600000 ![] bcast_S_S1600000 (constantI S_ 32 100000#32))) v))

/-- The effects summed over each node's outgoing edges, the senders given as a vector. -/
def sumByRow (s : (⟨S1600000, .i32⟩ : BufTy).Contents (Elt Ideal)) (u : FVec Ideal S1600000x100 .f32) :
    FVec Ideal S100000x100 .f32 :=
  Host.scatterAdd scatter_S100000x100_S1600000x1_S1600000x100_1_0_0_1
    (broadcastInDim S100000x100 ![] bcast_S_S100000x100 (constant S_ .f32 0x00000000#32))
    (broadcastInDim S1600000x1 ![0] bcast_S1600000_S1600000x1_0 s) u

/-- The edge features: sender and receiver coordinates side by side. -/
def features (x : FVec Ideal S100000x2 .f32) (e : (⟨S2x1600000, .i32⟩ : BufTy).Contents (Elt Ideal)) :
    FVec Ideal S1600000x4 .bf16 :=
  truncf .bf16 (concatenate S1600000x4 1 [⟨S1600000x2, gatherRows x (edgeRow0 e)⟩, ⟨S1600000x2, gatherRows x (edgeRow1 e)⟩]
    concatenates_S1600000x2_S1600000x2_S1600000x4_d1) bitsLt_bf16_f32

variable (m : (ℓ : Loc nD τ sig) → Buf (Elt Ideal) ℓ) (ρ : Dev nD → PrngReg)

/-! ## What the relation kernel is entered with -/

set_option maxHeartbeats 8000000 in
theorem v19_eq (c : Dev nD) : V1 m ρ c main_v19 = features (m ((c : Thread nD τ).loc main_arg0)) (m ((c : Thread nD τ).loc main_arg1)) := by
  show StableHlo.after hostOps0 (W0 m ρ c) (Proc.devRef .tc main_v19) = _
  after_results <;> rfl

set_option maxHeartbeats 8000000 in
theorem v21_eq (c : Dev nD) : V1 m ρ c main_v21 = (truncf .bf16 (extractStridedSlice S4x100 ![0, 0] (m ((c : Thread nD τ).loc main_arg2)) slices_S5x100_S4x100_0_0) bitsLt_bf16_f32 : FVec Ideal S4x100 .bf16) := by
  show StableHlo.after hostOps0 (W0 m ρ c) (Proc.devRef .tc main_v21) = _
  after_results <;> rfl

set_option maxHeartbeats 8000000 in
theorem v22_eq (c : Dev nD) : V1 m ρ c main_v22 = (truncf .bf16 (m ((c : Thread nD τ).loc main_arg4)) bitsLt_bf16_f32 : FVec Ideal S100x100 .bf16) := by
  show StableHlo.after hostOps0 (W0 m ρ c) (Proc.devRef .tc main_v22) = _
  after_results <;> rfl

set_option maxHeartbeats 8000000 in
theorem v23_eq (c : Dev nD) : V1 m ρ c main_v23 = (truncf .bf16 (m ((c : Thread nD τ).loc main_arg6)) bitsLt_bf16_f32 : FVec Ideal S100x100 .bf16) := by
  show StableHlo.after hostOps0 (W0 m ρ c) (Proc.devRef .tc main_v23) = _
  after_results <;> rfl

set_option maxHeartbeats 8000000 in
theorem v24_eq (c : Dev nD) : V1 m ρ c main_v24 = (truncf .bf16 (m ((c : Thread nD τ).loc main_arg8)) bitsLt_bf16_f32 : FVec Ideal S100x100 .bf16) := by
  show StableHlo.after hostOps0 (W0 m ρ c) (Proc.devRef .tc main_v24) = _
  after_results <;> rfl

set_option maxHeartbeats 8000000 in
theorem v25_eq (c : Dev nD) : V1 m ρ c main_v25 = shapeCast S1x100 (m ((c : Thread nD τ).loc main_arg3)) shapeCasts_S100_S1x100 := by
  show StableHlo.after hostOps0 (W0 m ρ c) (Proc.devRef .tc main_v25) = _
  after_results <;> rfl

set_option maxHeartbeats 8000000 in
theorem v26_eq (c : Dev nD) : V1 m ρ c main_v26 = shapeCast S1x100 (m ((c : Thread nD τ).loc main_arg5)) shapeCasts_S100_S1x100 := by
  show StableHlo.after hostOps0 (W0 m ρ c) (Proc.devRef .tc main_v26) = _
  after_results <;> rfl

set_option maxHeartbeats 8000000 in
theorem v27_eq (c : Dev nD) : V1 m ρ c main_v27 = shapeCast S1x100 (m ((c : Thread nD τ).loc main_arg7)) shapeCasts_S100_S1x100 := by
  show StableHlo.after hostOps0 (W0 m ρ c) (Proc.devRef .tc main_v27) = _
  after_results <;> rfl

set_option maxHeartbeats 8000000 in
theorem v28_eq (c : Dev nD) : V1 m ρ c main_v28 = shapeCast S1x100 (m ((c : Thread nD τ).loc main_arg9)) shapeCasts_S100_S1x100 := by
  show StableHlo.after hostOps0 (W0 m ρ c) (Proc.devRef .tc main_v28) = _
  after_results <;> rfl

set_option maxHeartbeats 8000000 in
theorem v1_eq (c : Dev nD) : V1 m ρ c main_v1 = edgeRow0 (m ((c : Thread nD τ).loc main_arg1)) := by
  show StableHlo.after hostOps0 (W0 m ρ c) (Proc.devRef .tc main_v1) = _
  after_results <;> rfl

/-! ## The arguments when the relation kernel has run -/

set_option maxHeartbeats 8000000 in
theorem W2_arg0 (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results

set_option maxHeartbeats 8000000 in
theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results

set_option maxHeartbeats 8000000 in
theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results

set_option maxHeartbeats 8000000 in
theorem W2_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  after_results

set_option maxHeartbeats 8000000 in
theorem W2_arg13 (c : Dev nD) : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  after_results

/-! ## What the object kernel is entered with, from the contents the relation kernel leaves -/

theorem v32_eq (c : Dev nD) : V3 m ρ c main_v32 = sumByRow (W2 m ρ c (Proc.devRef .tc main_v1)) (W2 m ρ c (Proc.devRef .tc main_v29)) := by
  show StableHlo.after hostOps1 (W2 m ρ c) (Proc.devRef .tc main_v32) = _
  after_results <;> rfl

theorem v33_eq (c : Dev nD) : V3 m ρ c main_v33 = (truncf .bf16 (W2 m ρ c (Proc.devRef .tc main_arg10)) bitsLt_bf16_f32 : FVec Ideal S102x100 .bf16) := by
  show StableHlo.after hostOps1 (W2 m ρ c) (Proc.devRef .tc main_v33) = _
  after_results <;> rfl

theorem v34_eq (c : Dev nD) : V3 m ρ c main_v34 = (truncf .bf16 (W2 m ρ c (Proc.devRef .tc main_arg12)) bitsLt_bf16_f32 : FVec Ideal S100x2 .bf16) := by
  show StableHlo.after hostOps1 (W2 m ρ c) (Proc.devRef .tc main_v34) = _
  after_results <;> rfl

theorem v35_eq (c : Dev nD) : V3 m ρ c main_v35 = shapeCast S1x100 (W2 m ρ c (Proc.devRef .tc main_arg11)) shapeCasts_S100_S1x100 := by
  show StableHlo.after hostOps1 (W2 m ρ c) (Proc.devRef .tc main_v35) = _
  after_results <;> rfl

theorem v36_eq (c : Dev nD) : V3 m ρ c main_v36 = shapeCast S1x2 (W2 m ρ c (Proc.devRef .tc main_arg13)) shapeCasts_S2_S1x2 := by
  show StableHlo.after hostOps1 (W2 m ρ c) (Proc.devRef .tc main_v36) = _
  after_results <;> rfl

theorem V3_arg0 (c : Dev nD) : V3 m ρ c main_arg0 = W2 m ρ c (Proc.devRef .tc main_arg0) := by
  show StableHlo.after hostOps1 (W2 m ρ c) (Proc.devRef .tc main_arg0) = _
  after_results

end Cert.KernelIdeal.HostSide

end
-- ==== Proof.KernelRun.lean ====
/-
  The kernel program's run with its result named.

  The program is four stretches in a row: host operations, the relation network's grid of 250 blocks of edges, host
  operations (the sum of the effects over each node's outgoing edges among them), the object network's grid of 10 blocks of
  nodes. Every weakly fair execution goes through the four in order and ends with every buffer of the TensorCore at
  the contents the last stretch leaves; the result array is one of those buffers, so it ends at those contents too, and the
  argument arrays end as they were launched.
-/
import proofs.«101774_j59004260712594_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result array ends at what
    the last stretch leaves in its buffer, and the argument arrays end as launched. -/
theorem run_result : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Result

end
-- ==== Proof.KernelValue.lean ====
/-
  The kernel program's result as `Spec`'s two whole-array functions of the arguments.

  The object kernel's output array is the object network of every node's coordinates beside its summed effects; the
  summed effects are the host's sum, over each node's outgoing edges, of the relation kernel's output array; and that array
  is the relation network of every edge's gathered coordinates. The weights reach the kernels through changes of float
  format (which keep every entry), the first weight matrix through a cut that keeps its first four rows, and each bias
  vector on a unit row whose one row is the vector.
-/
import proofs.«101774_j59004260712594_1_alg».proof.Proof.Blocks
import proofs.«101774_j59004260712594_1_alg».proof.Proof.LibConcatRow
import proofs.«101774_j59004260712594_1_alg».proof.Proof.HostK
import proofs.«101774_j59004260712594_1_alg».proof.Proof.KernelRun
import Idealize.ShloMosaic.Lib.ValueLayout

set_option maxRecDepth 16384

noncomputable section

namespace Cert.KernelIdeal.Whole

open Cert.KernelIdeal Cert.KernelIdeal.Gen Cert.KernelIdeal.Blocks Cert.KernelIdeal.HostSide
open Idealize.ShloMosaic Idealize.ShloMosaic.TcCoe Idealize.ShloMosaic.ValueIdx Idealize.SL.Sem
open Cert.Proof.DenseRow Cert.Proof.Mlp Cert.Proof.Spec Cert.Proof.ConcatRow

/-- A vector placed on a unit row, read along that row, is the vector. -/
theorem unitRow_eq {N : ℕ} (b : (⟨1, ![N]⟩ : Shape).Idx → EReal) (h : (⟨1, ![N]⟩ : Shape).ShapeCasts ⟨2, ![1, N]⟩) :
    (fun n : Fin N => shapeCast ⟨2, ![1, N]⟩ b h (ix2 (0 : Fin 1) n)) = fun n => b (ix1 n) :=
  funext fun n => shapeCast_a_1a_apply b h 0 n

/-- The relation kernel's output on the host's edge features and prepared weights is `Spec`'s effects array. -/
theorem relArr_eq (g1 g2 : FVec Ideal S1600000x2 .f32) (w1 : FVec Ideal S5x100 .f32) (b1 : FVec Ideal S100 .f32)
    (w2 : FVec Ideal S100x100 .f32) (b2 : FVec Ideal S100 .f32) (w3 : FVec Ideal S100x100 .f32) (b3 : FVec Ideal S100 .f32)
    (w4 : FVec Ideal S100x100 .f32) (b4 : FVec Ideal S100 .f32) :
    relArr (truncf .bf16 (concatenate S1600000x4 1 [⟨S1600000x2, g1⟩, ⟨S1600000x2, g2⟩] concatenates_S1600000x2_S1600000x2_S1600000x4_d1) bitsLt_bf16_f32)
        (truncf .bf16 (extractStridedSlice S4x100 ![0, 0] w1 slices_S5x100_S4x100_0_0) bitsLt_bf16_f32) (shapeCast S1x100 b1 shapeCasts_S100_S1x100)
        (truncf .bf16 w2 bitsLt_bf16_f32) (shapeCast S1x100 b2 shapeCasts_S100_S1x100)
        (truncf .bf16 w3 bitsLt_bf16_f32) (shapeCast S1x100 b3 shapeCasts_S100_S1x100)
        (truncf .bf16 w4 bitsLt_bf16_f32) (shapeCast S1x100 b4 shapeCasts_S100_S1x100)
      = relArrF g1 g2 (fun (k : Fin 4) n => w1 (ix2 k.castSucc n)) (fun n => b1 (ix1 n)) (fun k n => w2 (ix2 k n)) (fun n => b2 (ix1 n))
          (fun k n => w3 (ix2 k n)) (fun n => b3 (ix1 n)) (fun k n => w4 (ix2 k n)) (fun n => b4 (ix1 n)) := by
  funext i
  obtain ⟨p, q, rfl⟩ : ∃ (p : Fin 1600000) (q : Fin 100), i = ix2 p q := ⟨i 0, i 1, eq_ix2 i⟩
  show relRow (fun k : Fin 4 => concatenate S1600000x4 1 [⟨S1600000x2, g1⟩, ⟨S1600000x2, g2⟩] concatenates_S1600000x2_S1600000x2_S1600000x4_d1 (ix2 p k))
      (fun (k : Fin 4) (n : Fin 100) => extractStridedSlice S4x100 ![0, 0] w1 slices_S5x100_S4x100_0_0 (ix2 k n))
      (fun n : Fin 100 => shapeCast S1x100 b1 shapeCasts_S100_S1x100 (ix2 (0 : Fin 1) n))
      (fun k n => w2 (ix2 k n)) (fun n : Fin 100 => shapeCast S1x100 b2 shapeCasts_S100_S1x100 (ix2 (0 : Fin 1) n))
      (fun k n => w3 (ix2 k n)) (fun n : Fin 100 => shapeCast S1x100 b3 shapeCasts_S100_S1x100 (ix2 (0 : Fin 1) n))
      (fun k n => w4 (ix2 k n)) (fun n : Fin 100 => shapeCast S1x100 b4 shapeCasts_S100_S1x100 (ix2 (0 : Fin 1) n)) q
    = relRow (cat2 (fun a : Fin 2 => g1 (ix2 p a)) (fun a : Fin 2 => g2 (ix2 p a)) 4) (fun (k : Fin 4) n => w1 (ix2 k.castSucc n)) (fun n => b1 (ix1 n))
      (fun k n => w2 (ix2 k n)) (fun n => b2 (ix1 n)) (fun k n => w3 (ix2 k n)) (fun n => b3 (ix1 n)) (fun k n => w4 (ix2 k n)) (fun n => b4 (ix1 n)) q
  have hs : (fun (k : Fin 4) (n : Fin 100) => extractStridedSlice S4x100 ![0, 0] w1 slices_S5x100_S4x100_0_0 (ix2 k n))
      = fun (k : Fin 4) n => w1 (ix2 k.castSucc n) :=
    funext fun k => funext fun n => slice2_axis0_apply 0 w1 slices_S5x100_S4x100_0_0 k n k.castSucc (by simp)
  rw [concat_row (by norm_num) g1 g2 concatenates_S1600000x2_S1600000x2_S1600000x4_d1 p, hs,
    unitRow_eq (N := 100) b1 shapeCasts_S100_S1x100, unitRow_eq (N := 100) b2 shapeCasts_S100_S1x100,
    unitRow_eq (N := 100) b3 shapeCasts_S100_S1x100, unitRow_eq (N := 100) b4 shapeCasts_S100_S1x100]

/-- The object kernel's output on the prepared weights is `Spec`'s result array. -/
theorem objArr_eq (x : FVec Ideal S100000x2 .f32) (A : FVec Ideal S100000x100 .f32) (v1 : FVec Ideal S102x100 .f32) (c1 : FVec Ideal S100 .f32)
    (v2 : FVec Ideal S100x2 .f32) (c2 : FVec Ideal S2 .f32) :
    objArr x A (truncf .bf16 v1 bitsLt_bf16_f32) (shapeCast S1x100 c1 shapeCasts_S100_S1x100) (truncf .bf16 v2 bitsLt_bf16_f32)
        (shapeCast S1x2 c2 shapeCasts_S2_S1x2)
      = objArrF x A (fun k n => v1 (ix2 k n)) (fun n => c1 (ix1 n)) (fun k n => v2 (ix2 k n)) (fun n => c2 (ix1 n)) := by
  funext i
  obtain ⟨p, q, rfl⟩ : ∃ (p : Fin 100000) (q : Fin 2), i = ix2 p q := ⟨i 0, i 1, eq_ix2 i⟩
  show objRow (cat2 (fun a : Fin 2 => x (ix2 p a)) (fun b : Fin 100 => A (ix2 p b)) 102) (fun k n => v1 (ix2 k n))
      (fun n : Fin 100 => shapeCast S1x100 c1 shapeCasts_S100_S1x100 (ix2 (0 : Fin 1) n)) (fun k n => v2 (ix2 k n))
      (fun n : Fin 2 => shapeCast S1x2 c2 shapeCasts_S2_S1x2 (ix2 (0 : Fin 1) n)) q
    = objRow (cat2 (fun a : Fin 2 => x (ix2 p a)) (fun b : Fin 100 => A (ix2 p b)) 102) (fun k n => v1 (ix2 k n)) (fun n => c1 (ix1 n))
      (fun k n => v2 (ix2 k n)) (fun n => c2 (ix1 n)) q
  rw [unitRow_eq (N := 100) c1 shapeCasts_S100_S1x100, unitRow_eq (N := 2) c2 shapeCasts_S2_S1x2]

variable (m : (ℓ : Loc nD τ sig) → Buf (Elt Ideal) ℓ) (ρ : Dev nD → PrngReg)

/-- What the result buffer holds when the last stretch is done, as a function of the arguments. -/
def value (c : Dev nD) : Buf (Elt Ideal) ((c : Thread nD τ).loc main_v37) :=
  objArrF (m ((c : Thread nD τ).loc main_arg0))
    (sumByRow (edgeRow0 (m ((c : Thread nD τ).loc main_arg1)))
      (relArrF (gatherRows (m ((c : Thread nD τ).loc main_arg0)) (edgeRow0 (m ((c : Thread nD τ).loc main_arg1)))) (gatherRows (m ((c : Thread nD τ).loc main_arg0)) (edgeRow1 (m ((c : Thread nD τ).loc main_arg1))))
        (fun (k : Fin 4) n => (m ((c : Thread nD τ).loc main_arg2)) (ix2 k.castSucc n)) (fun n => (m ((c : Thread nD τ).loc main_arg3)) (ix1 n))
        (fun k n => (m ((c : Thread nD τ).loc main_arg4)) (ix2 k n)) (fun n => (m ((c : Thread nD τ).loc main_arg5)) (ix1 n))
        (fun k n => (m ((c : Thread nD τ).loc main_arg6)) (ix2 k n)) (fun n => (m ((c : Thread nD τ).loc main_arg7)) (ix1 n))
        (fun k n => (m ((c : Thread nD τ).loc main_arg8)) (ix2 k n)) (fun n => (m ((c : Thread nD τ).loc main_arg9)) (ix1 n))))
    (fun k n => (m ((c : Thread nD τ).loc main_arg10)) (ix2 k n)) (fun n => (m ((c : Thread nD τ).loc main_arg11)) (ix1 n))
    (fun k n => (m ((c : Thread nD τ).loc main_arg12)) (ix2 k n)) (fun n => (m ((c : Thread nD τ).loc main_arg13)) (ix1 n))

/-- The last stretch leaves the result buffer at `value`. -/
theorem W4_value (c : Dev nD) : W4 m ρ c (Proc.devRef .tc main_v37) = value m c := by
  refine (W4_arr m ρ c 6).trans ?_
  rw [Blocks.result (V3 m ρ) c]
  rw [V3_arg0 m ρ c, v32_eq m ρ c, v33_eq m ρ c, v34_eq m ρ c, v35_eq m ρ c, v36_eq m ρ c,
    W2_arg0 m ρ c, W2_arg10 m ρ c, W2_arg11 m ρ c, W2_arg12 m ρ c, W2_arg13 m ρ c]
  rw [objArr_eq]
  have hv1 : W2 m ρ c (Proc.devRef .tc main_v1) = edgeRow0 (m ((c : Thread nD τ).loc main_arg1)) :=
    (W2_of_ne m ρ c main_v1 (by decide)).trans (v1_eq m ρ c)
  have hE : W2 m ρ c (Proc.devRef .tc main_v29)
      = relArr (V1 m ρ c main_v19) (V1 m ρ c main_v21) (V1 m ρ c main_v25) (V1 m ρ c main_v22) (V1 m ρ c main_v26)
          (V1 m ρ c main_v23) (V1 m ρ c main_v27) (V1 m ρ c main_v24) (V1 m ρ c main_v28) :=
    (W2_arr m ρ c 9).trans (Blocks.effects (V1 m ρ) c)
  rw [hv1, hE, v19_eq m ρ c, v21_eq m ρ c, v22_eq m ρ c, v23_eq m ρ c, v24_eq m ρ c, v25_eq m ρ c, v26_eq m ρ c,
    v27_eq m ρ c, v28_eq m ρ c]
  unfold features
  rw [relArr_eq]
  rfl

/-- The kernel program's run: the result array ends at `value`, the arguments as launched. -/
theorem run : θ_run defs (onTc (τ := τ) (main (F := Ideal))) ⟨m, fun _ => 0, ρ⟩ (fun r => ∀ c : Dev nD,
      r.2.mem ((c.tc : Thread nD τ).loc main_v37) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W4_value m ρ c), (h c).2⟩) (Cert.KernelIdeal.Result.run_result m ρ)

end Cert.KernelIdeal.Whole

end
-- ==== Proof.RefValue.lean ====
/-
  The reference program's result, read as the two whole-array functions of `Spec`.

  The reference gathers each edge's sender and receiver coordinates, lays them beside a column of zeros, and sends the
  five features through four rectified affine layers with the 5 × 100, 100 × 100, … weights; it sums the effects over
  each node's outgoing edges, lays each node's coordinates beside its sums, and applies a rectified affine layer and an
  affine layer. The fifth feature is zero, so it contributes `0 · w = 0` to the first layer whatever the fifth weight
  row holds: the first layer is the affine layer of the four gathered coordinates with the first four weight rows.
-/
import proofs.«101774_j59004260712594_1_alg».proof.Proof.Gen.ReferenceIdeal.Run
import proofs.«101774_j59004260712594_1_alg».proof.Proof.LibAffineLayer
import proofs.«101774_j59004260712594_1_alg».proof.Proof.Spec
import proofs.«101774_j59004260712594_1_alg».proof.Proof.LibConcatRow

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem
open Cert.Proof.DenseRow Cert.Proof.Mlp Cert.Proof.Layers Cert.Proof.Spec Cert.Proof.ConcatRow

/-! ## The program's stages -/

/-- The senders: row 0 of the edge list. -/
def edgeRow0 (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The receivers: row 1 of the edge list. -/
def edgeRow1 (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The rows of `x` named by a vector of node numbers (a negative number counted from the end first). -/
def gatherRows (x : FVec Ideal S100000x2 .f32) (v : (⟨S1600000, .i32⟩ : BufTy).Contents (Elt Ideal)) :
    FVec Ideal S1600000x2 .f32 :=
  Host.gather gather_S100000x2_S1600000x1_S1600000x2_1_0_n_n_0_1_12 x
    (broadcastInDim S1600000x1 ![0] bcast_S1600000_S1600000x1_0
      (select (cmpi .slt v (broadcastInDim S1600000 ![] bcast_S_S1600000 (constantI S_ 32 0#32)))
        (addi v (broadcastInDim S1600000 ![] bcast_S_S1600000 (constantI S_ 32 100000#32))) v))

/-- The effects summed over each node's outgoing edges. -/
def sumBySender (e : (⟨S2x1600000, .i32⟩ : BufTy).Contents (Elt Ideal)) (u : FVec Ideal S1600000x100 .f32) :
    FVec Ideal S100000x100 .f32 :=
  Host.scatterAdd scatter_S100000x100_S1600000x1_S1600000x100_1_0_0_1
    (broadcastInDim S100000x100 ![] bcast_S_S100000x100 (constant S_ .f32 0x00000000#32))
    (broadcastInDim S1600000x1 ![0] bcast_S1600000_S1600000x1_0 (edgeRow0 e)) u

/-- The first rectified layer, on the gathered coordinates beside a column of zeros. -/
def layer1R (g1 g2 : FVec Ideal S1600000x2 .f32) (w : FVec Ideal S5x100 .f32)
    (b : FVec Ideal S100 .f32) : FVec Ideal S1600000x100 .f32 :=
  maximumf (addf (Host.dotGeneral dot_S1600000x5_S5x100_S1600000x100_1_0_0_1_n_n none
      (concatenate S1600000x5 1 [⟨S1600000x2, g1⟩, ⟨S1600000x2, g2⟩, ⟨S1600000x1, broadcastInDim S1600000x1 ![] bcast_S_S1600000x1 (constant S_ .f32 0x00000000#32)⟩]
        concatenates_S1600000x2_S1600000x2_S1600000x1_S1600000x5_d1) w)
    (broadcastInDim S1600000x100 ![0, 1] bcast_S1x100_S1600000x100_0_1 (broadcastInDim S1x100 ![1] bcast_S100_S1x100_1 b))) (broadcastInDim S1600000x100 ![] bcast_S_S1600000x100 (constant S_ .f32 0x00000000#32))

/-- A later rectified layer of the relation network. -/
def layerR (X : FVec Ideal S1600000x100 .f32) (w : FVec Ideal S100x100 .f32)
    (b : FVec Ideal S100 .f32) : FVec Ideal S1600000x100 .f32 :=
  maximumf (addf (Host.dotGeneral dot_S1600000x100_S100x100_S1600000x100_1_0_0_1_n_n none X w)
    (broadcastInDim S1600000x100 ![0, 1] bcast_S1x100_S1600000x100_0_1 (broadcastInDim S1x100 ![1] bcast_S100_S1x100_1 b))) (broadcastInDim S1600000x100 ![] bcast_S_S1600000x100 (constant S_ .f32 0x00000000#32))

/-- The object network on every node's coordinates beside its summed effects. -/
def resR (x : FVec Ideal S100000x2 .f32) (A : FVec Ideal S100000x100 .f32)
    (v1 : FVec Ideal S102x100 .f32) (c1 : FVec Ideal S100 .f32)
    (v2 : FVec Ideal S100x2 .f32) (c2 : FVec Ideal S2 .f32) :
    FVec Ideal S100000x2 .f32 :=
  addf (Host.dotGeneral dot_S100000x100_S100x2_S100000x2_1_0_0_1_n_n none
      (maximumf (addf (Host.dotGeneral dot_S100000x102_S102x100_S100000x100_1_0_0_1_n_n none
          (concatenate S100000x102 1 [⟨S100000x2, x⟩, ⟨S100000x100, A⟩] concatenates_S100000x2_S100000x100_S100000x102_d1) v1)
        (broadcastInDim S100000x100 ![0, 1] bcast_S1x100_S100000x100_0_1 (broadcastInDim S1x100 ![1] bcast_S100_S1x100_1 c1))) (broadcastInDim S100000x100 ![] bcast_S_S100000x100 (constant S_ .f32 0x00000000#32))) v2)
    (broadcastInDim S100000x2 ![0, 1] bcast_S1x2_S100000x2_0_1 (broadcastInDim S1x2 ![1] bcast_S2_S1x2_1 c2))

/-- The program's result term is these stages composed. -/
theorem res_eq (m : (ℓ : Loc nD τ sig) → Buf (Elt Ideal) ℓ) (c : Dev nD) :
    res_main_v52 (F := Ideal) m c
      = resR (m ((c.tc : Thread nD τ).loc main_arg0))
          (sumBySender (m ((c.tc : Thread nD τ).loc main_arg1))
            (layerR (layerR (layerR (layer1R
              (gatherRows (m ((c.tc : Thread nD τ).loc main_arg0)) (edgeRow0 (m ((c.tc : Thread nD τ).loc main_arg1))))
              (gatherRows (m ((c.tc : Thread nD τ).loc main_arg0)) (edgeRow1 (m ((c.tc : Thread nD τ).loc main_arg1))))
              (m ((c.tc : Thread nD τ).loc main_arg2)) (m ((c.tc : Thread nD τ).loc main_arg3)))
              (m ((c.tc : Thread nD τ).loc main_arg4)) (m ((c.tc : Thread nD τ).loc main_arg5)))
              (m ((c.tc : Thread nD τ).loc main_arg6)) (m ((c.tc : Thread nD τ).loc main_arg7)))
              (m ((c.tc : Thread nD τ).loc main_arg8)) (m ((c.tc : Thread nD τ).loc main_arg9))))
          (m ((c.tc : Thread nD τ).loc main_arg10)) (m ((c.tc : Thread nD τ).loc main_arg11))
          (m ((c.tc : Thread nD τ).loc main_arg12)) (m ((c.tc : Thread nD τ).loc main_arg13)) := by
  unfold res_main_v52
  rfl

/-! ## The stages, row by row -/

theorem dot5_eq : dot_S1600000x5_S5x100_S1600000x100_1_0_0_1_n_n = DotDims.plain 1600000 5 100 := rfl
theorem dot100_eq : dot_S1600000x100_S100x100_S1600000x100_1_0_0_1_n_n = DotDims.plain 1600000 100 100 := rfl
theorem dot102_eq : dot_S100000x102_S102x100_S100000x100_1_0_0_1_n_n = DotDims.plain 100000 102 100 := rfl
theorem dot2_eq : dot_S100000x100_S100x2_S100000x2_1_0_0_1_n_n = DotDims.plain 100000 100 2 := rfl

/-- A later layer: each row goes through the rectified affine layer. -/
theorem layerR_eq (X : FVec Ideal S1600000x100 .f32) (w : FVec Ideal S100x100 .f32)
    (b : FVec Ideal S100 .f32) :
    layerR X w b = fun i => reluDense (fun k : Fin 100 => X (ix2 (i 0) k)) (fun k n => w (ix2 k n)) (fun n => b (ix1 n)) (i 1) := by
  unfold layerR
  simp only [dot100_eq]
  rw [host_affine (M := 1600000) (K := 100) (N := 100) X w b bcast_S100_S1x100_1 bcast_S1x100_S1600000x100_0_1,
    relu_bcast _ bcast_S_S1600000x100]
  rfl

/-- The zero column read at any row is zero. -/
theorem zero_col (p : Fin 1600000) :
    broadcastInDim S1600000x1 ![] bcast_S_S1600000x1 (constant (F := Ideal) S_ .f32 0x00000000#32) (ix2 p (0 : Fin 1)) = 0 := by
  rw [broadcastInDim_apply ![] bcast_S_S1600000x1 _ (ix2 p (0 : Fin 1)) ix0 (fun a => a.elim0), constant_apply, Ideal.ofBits_zero_f32]

/-- The five features of an edge: the last one is zero. -/
theorem features_last (g1 g2 : FVec Ideal S1600000x2 .f32) (p : Fin 1600000) :
    concatenate S1600000x5 1 [⟨S1600000x2, g1⟩, ⟨S1600000x2, g2⟩, ⟨S1600000x1, (broadcastInDim S1600000x1 ![] bcast_S_S1600000x1 (constant (F := Ideal) S_ .f32 0x00000000#32))⟩] concatenates_S1600000x2_S1600000x2_S1600000x1_S1600000x5_d1 (ix2 p (Fin.last 4)) = 0 :=
  (concat3_row_last (A := 2) (B := 2) g1 g2 (broadcastInDim S1600000x1 ![] bcast_S_S1600000x1 (constant (F := Ideal) S_ .f32 0x00000000#32)) concatenates_S1600000x2_S1600000x2_S1600000x1_S1600000x5_d1 p).trans (zero_col p)

/-- … and the first four are the gathered sender and receiver coordinates side by side. -/
theorem features_init (g1 g2 : FVec Ideal S1600000x2 .f32) (p : Fin 1600000) :
    (fun k : Fin 4 => concatenate S1600000x5 1 [⟨S1600000x2, g1⟩, ⟨S1600000x2, g2⟩, ⟨S1600000x1, (broadcastInDim S1600000x1 ![] bcast_S_S1600000x1 (constant (F := Ideal) S_ .f32 0x00000000#32))⟩] concatenates_S1600000x2_S1600000x2_S1600000x1_S1600000x5_d1 (ix2 p k.castSucc))
      = cat2 (fun a : Fin 2 => g1 (ix2 p a)) (fun a : Fin 2 => g2 (ix2 p a)) 4 :=
  concat3_row_init (A := 2) (B := 2) g1 g2 (broadcastInDim S1600000x1 ![] bcast_S_S1600000x1 (constant (F := Ideal) S_ .f32 0x00000000#32)) concatenates_S1600000x2_S1600000x2_S1600000x1_S1600000x5_d1 p

/-- The affine layer of an edge's five features with the whole first weight matrix is the affine layer of its four
    gathered coordinates with the first four weight rows: the zero feature contributes `0 · w = 0`. -/
theorem first_affine (g1 g2 : FVec Ideal S1600000x2 .f32) (w : FVec Ideal S5x100 .f32) (b : FVec Ideal S100 .f32) (p : Fin 1600000) (q : Fin 100) :
    dense (fun k : Fin 5 => concatenate S1600000x5 1 [⟨S1600000x2, g1⟩, ⟨S1600000x2, g2⟩, ⟨S1600000x1, (broadcastInDim S1600000x1 ![] bcast_S_S1600000x1 (constant (F := Ideal) S_ .f32 0x00000000#32))⟩] concatenates_S1600000x2_S1600000x2_S1600000x1_S1600000x5_d1 (ix2 p k))
        (fun k n => w (ix2 k n)) (fun n => b (ix1 n)) q
      = dense (cat2 (fun a : Fin 2 => g1 (ix2 p a)) (fun a : Fin 2 => g2 (ix2 p a)) 4) (fun (k : Fin 4) n => w (ix2 k.castSucc n)) (fun n => b (ix1 n)) q := by
  rw [dense_castSucc (K := 4) _ _ _ (features_last g1 g2 p), features_init g1 g2 p]

/-- The first layer: the zero feature drops out, leaving the rectified affine layer of the four gathered coordinates with
    the first four weight rows. -/
theorem layer1R_eq (g1 g2 : FVec Ideal S1600000x2 .f32) (w : FVec Ideal S5x100 .f32)
    (b : FVec Ideal S100 .f32) :
    layer1R g1 g2 w b = fun i => reluDense (cat2 (fun a : Fin 2 => g1 (ix2 (i 0) a)) (fun a : Fin 2 => g2 (ix2 (i 0) a)) 4)
      (fun (k : Fin 4) n => w (ix2 k.castSucc n)) (fun n => b (ix1 n)) (i 1) := by
  unfold layer1R
  simp only [dot5_eq]
  rw [host_affine (M := 1600000) (K := 5) (N := 100) _ w b bcast_S100_S1x100_1 bcast_S1x100_S1600000x100_0_1,
    relu_bcast _ bcast_S_S1600000x100]
  funext i
  obtain ⟨p, q, rfl⟩ : ∃ (p : Fin 1600000) (q : Fin 100), i = ix2 p q := ⟨i 0, i 1, eq_ix2 i⟩
  exact congrArg relu (first_affine g1 g2 w b p q)

/-- The effects array of the reference is `Spec`'s, with the first four rows of the first weight matrix. -/
theorem effects_eq (g1 g2 : FVec Ideal S1600000x2 .f32) (w1 : FVec Ideal S5x100 .f32)
    (b1 : FVec Ideal S100 .f32) (w2 : FVec Ideal S100x100 .f32) (b2 : FVec Ideal S100 .f32)
    (w3 : FVec Ideal S100x100 .f32) (b3 : FVec Ideal S100 .f32)
    (w4 : FVec Ideal S100x100 .f32) (b4 : FVec Ideal S100 .f32) :
    layerR (layerR (layerR (layer1R g1 g2 w1 b1) w2 b2) w3 b3) w4 b4
      = relArrF g1 g2 (fun (k : Fin 4) n => w1 (ix2 k.castSucc n)) (fun n => b1 (ix1 n)) (fun k n => w2 (ix2 k n)) (fun n => b2 (ix1 n))
          (fun k n => w3 (ix2 k n)) (fun n => b3 (ix1 n)) (fun k n => w4 (ix2 k n)) (fun n => b4 (ix1 n)) := by
  rw [layer1R_eq, layerR_eq, layerR_eq, layerR_eq]
  rfl

/-- The result array of the reference is `Spec`'s. -/
theorem result_eq (x : FVec Ideal S100000x2 .f32) (A : FVec Ideal S100000x100 .f32)
    (v1 : FVec Ideal S102x100 .f32) (c1 : FVec Ideal S100 .f32)
    (v2 : FVec Ideal S100x2 .f32) (c2 : FVec Ideal S2 .f32) :
    resR x A v1 c1 v2 c2
      = objArrF x A (fun k n => v1 (ix2 k n)) (fun n => c1 (ix1 n)) (fun k n => v2 (ix2 k n)) (fun n => c2 (ix1 n)) := by
  unfold resR
  simp only [dot102_eq, dot2_eq]
  rw [host_affine (M := 100000) (K := 102) (N := 100) _ v1 c1 bcast_S100_S1x100_1 bcast_S1x100_S100000x100_0_1,
    relu_bcast _ bcast_S_S100000x100,
    host_affine (M := 100000) (K := 100) (N := 2) _ v2 c2 bcast_S2_S1x2_1 bcast_S1x2_S100000x2_0_1]
  funext i
  obtain ⟨p, q, rfl⟩ : ∃ (p : Fin 100000) (q : Fin 2), i = ix2 p q := ⟨i 0, i 1, eq_ix2 i⟩
  show dense (fun k => relu (dense (fun k' => concatenate S100000x102 1 [⟨S100000x2, x⟩, ⟨S100000x100, A⟩]
        concatenates_S100000x2_S100000x100_S100000x102_d1 (ix2 p k')) (fun k n => v1 (ix2 k n)) (fun n => c1 (ix1 n)) k))
      (fun k n => v2 (ix2 k n)) (fun n => c2 (ix1 n)) q = _
  rw [concat_row (by norm_num) x A concatenates_S100000x2_S100000x100_S100000x102_d1 p]
  rfl

end Cert.ReferenceIdeal.RefValue

end
-- ==== Proof.lean ====
/-
  The kernel program and the reference program compute the same result on the extended reals.

  The kernel program gathers, for every edge, the coordinates of its sender and of its receiver; its first kernel sends
  those four features through the relation network, 6400 edges per grid point; the host sums the effects over each
  node's outgoing edges; its second kernel sends each node's coordinates and summed effects through the object network,
  10000 nodes per grid point. The reference does the same with whole-array operations, except that it lays a column of
  zeros beside the four gathered features and multiplies by the whole 5 × 100 first weight matrix: the fifth feature is
  zero and `0 · w = 0` for every extended real `w`, so the fifth weight row never shows in the result, whatever it
  holds. No other law is needed, and none that asks the inputs to be finite: the precondition is not used.
  The ideal pass rewrote nothing in the kernel, so there is nothing to preserve beyond the text itself.
-/
import proofs.«101774_j59004260712594_1_alg».proof.Defs
import proofs.«101774_j59004260712594_1_alg».proof.Proof.Gen.Kernel
import proofs.«101774_j59004260712594_1_alg».proof.Proof.Gen.Kernel.Skeleton
import proofs.«101774_j59004260712594_1_alg».proof.Proof.Gen.Kernel.Launch
import proofs.«101774_j59004260712594_1_alg».proof.Proof.Gen.Kernel.Points
import proofs.«101774_j59004260712594_1_alg».proof.Proof.Gen.Kernel.Frame
import proofs.«101774_j59004260712594_1_alg».proof.Proof.Gen.KernelIdeal
import proofs.«101774_j59004260712594_1_alg».proof.Proof.Gen.KernelIdeal.Skeleton
import proofs.«101774_j59004260712594_1_alg».proof.Proof.Gen.KernelIdeal.Launch
import proofs.«101774_j59004260712594_1_alg».proof.Proof.Gen.KernelIdeal.Points
import proofs.«101774_j59004260712594_1_alg».proof.Proof.Gen.KernelIdeal.Frame
import proofs.«101774_j59004260712594_1_alg».proof.Proof.Gen.ReferenceIdeal
import proofs.«101774_j59004260712594_1_alg».proof.Proof.Gen.Pre_finite_inputs
import proofs.«101774_j59004260712594_1_alg».proof.Proof.Gen.ReferenceIdeal.Run
import proofs.«101774_j59004260712594_1_alg».proof.Proof.KernelValue
import proofs.«101774_j59004260712594_1_alg».proof.Proof.RefValue
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the object network of
    every node's coordinates and of the sum, over its outgoing edges, of the relation network of the edges' gathered
    coordinates. -/
theorem algebraic : Cert.algebraic_KernelIdeal_ReferenceIdeal := by
  intro m ρ m' ρ' _ hagree
  refine ⟨fun c => Cert.KernelIdeal.Whole.value m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, Cert.ReferenceIdeal.RefValue.effects_eq, Cert.ReferenceIdeal.RefValue.result_eq]
  obtain ⟨h0, h1, h2, h3, h4, h5, h6, h7, h8, h9, h10, h11, h12, h13⟩ := hagree c
  rw [h0, h1, h2, h3, h4, h5, h6, h7, h8, h9, h10, h11, h12, h13]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
